-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x16 .f32) (main_arg11 : FVec F S16 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x16 .f32 := Host.absf main_arg10
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x16 .f32) (main_arg11 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x16 .f32) (main_arg11 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 119
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x16, .f32⟩
  | .hbm, ⟨11, _⟩ => ⟨S16, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S100000, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x1, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x64, .f32⟩
  | .hbm, ⟨102, _⟩ => ⟨S1600000x1, .f32⟩
  | .hbm, ⟨103, _⟩ => ⟨S1600000x64, .f32⟩
  | .hbm, ⟨104, _⟩ => ⟨S1600000x64, .f32⟩
  | .hbm, ⟨105, _⟩ => ⟨S_, .f32⟩
  | .hbm, ⟨106, _⟩ => ⟨S100000x64, .f32⟩
  | .hbm, ⟨107, _⟩ => ⟨S1600000x1, .i32⟩
  | .hbm, ⟨108, _⟩ => ⟨S100000x64, .f32⟩
  | .hbm, ⟨109, _⟩ => ⟨S100000x1, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S1x16, .f32⟩
  | .hbm, ⟨118, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x16, .f32⟩
  | .local _ .vmem, ⟨39, _⟩ => ⟨S1x16, .f32⟩
  | .local _ .vmem, ⟨40, _⟩ => ⟨S5000x16, .f32⟩
  | .local _ .vmem, ⟨41, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x16.size a ≤ S64x16.size a
  hwx7_1 : ∀ i : grid7.Coords, EltTy.bits .f32 = 32 ∨ (Rect.block (s := S64x16) S64x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x16.size a ≤ S1x16.size a
  hwx7_2 : ∀ i : grid7.Coords, EltTy.bits .f32 = 32 ∨ (Rect.block (s := S1x16) S1x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x16.size a ≤ S100000x16.size a
  hwx7_3 : ∀ i : grid7.Coords, EltTy.bits .f32 = 32 ∨ (Rect.block (s := S100000x16) S5000x16.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v88) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S1x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v90) S5000x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 198
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x16, .f32⟩
  | 11 => ⟨S16, .f32⟩
  | 12 => ⟨S1x1600000, .i32⟩
  | 13 => ⟨S1600000, .i32⟩
  | 14 => ⟨S1x1600000, .i32⟩
  | 15 => ⟨S1600000, .i32⟩
  | 16 => ⟨S100000x64, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x1, .f32⟩
  | 56 => ⟨S1600000x64, .f32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S100000, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x1, .f32⟩
  | 113 => ⟨S1600000x64, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S100000, .f32⟩
  | 120 => ⟨S100000x1, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S1600000, .f32⟩
  | 5 => ⟨S_, .f32⟩
  | 6 => ⟨S100000, .f32⟩
  | 7 => ⟨S1600000x1, .i32⟩
  | 8 => ⟨S100000, .f32⟩
  | 9 => ⟨S_, .f32⟩
  | 10 => ⟨S100000, .f32⟩
  | 11 => ⟨S100000, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1600000x1, .f32⟩
  | 42 => ⟨S1600000x64, .f32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000, .f32⟩
  | 49 => ⟨S100000x1, .f32⟩
  | 50 => ⟨S100000x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S100000x16, .f32⟩
  | 67 => ⟨S1x16, .f32⟩
  | 68 => ⟨S100000x16, .f32⟩
  | 69 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call1_cst : Ref sig .tc := ⟨.hbm, 127, rfl⟩
abbrev main_call1_v0 : Ref sig .tc := ⟨.hbm, 128, rfl⟩
abbrev main_v93 : Ref sig .tc := ⟨.hbm, 129, rfl⟩
abbrev main_v94 : Ref sig .tc := ⟨.hbm, 130, rfl⟩
abbrev main_cst_18 : Ref sig .tc := ⟨.hbm, 131, rfl⟩
abbrev main_v95 : Ref sig .tc := ⟨.hbm, 132, rfl⟩
abbrev main_cst_19 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_21 : Ref sig .tc := ⟨.hbm, 141, rfl⟩
abbrev main_v102 : Ref sig .tc := ⟨.hbm, 142, rfl⟩
abbrev main_v103 : Ref sig .tc := ⟨.hbm, 143, rfl⟩
abbrev main_c_22 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_23 : Ref sig .tc := ⟨.hbm, 150, rfl⟩
abbrev main_v109 : Ref sig .tc := ⟨.hbm, 151, rfl⟩
abbrev main_v110 : Ref sig .tc := ⟨.hbm, 152, rfl⟩
abbrev main_c_24 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_25 : Ref sig .tc := ⟨.hbm, 160, rfl⟩
abbrev main_v117 : Ref sig .tc := ⟨.hbm, 161, rfl⟩
abbrev main_v118 : Ref sig .tc := ⟨.hbm, 162, rfl⟩
abbrev main_c_26 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_27 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_call2_cst : Ref sig .tc := ⟨.hbm, 184, rfl⟩
abbrev main_call2_v0 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_call3_cst : Ref sig .tc := ⟨.hbm, 191, rfl⟩
abbrev main_call3_v0 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.RunAll.lean ====
/-
  The run of the kernel's whole program with every buffer named.

  The program is fourteen segments: six stretches of host operations and eight kernel launches. The generated frame
  walks the buffer contents through them — `W0` at launch, `W1` after the first host stretch, `W2` after the first
  launch, …, `W14` at the return — and proves that every weakly fair execution terminates without a fault; its stated
  conclusion keeps only the argument arrays. The same walk gives more: at the return EVERY unscoped buffer of a core
  holds `W14` of that core. That stronger conclusion is stated here, and from it the run with the result buffer named
  beside the unchanged arguments.
-/
import proofs.«108074_j26499948216402_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The run with the result buffer named: it ends at the last boundary's contents of `main_v90`, the argument
    arrays as launched. -/
theorem run_result : θ_run defs (onTc (τ := τ) (main (F := F))) ⟨m, fun _ => 0, ρ⟩ (fun r => ∀ c : Dev nD,
      r.2.mem ((c.tc : Thread nD τ).loc main_v90) = W14 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v90 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)
    (run_all m ρ)

end Cert.KernelIdeal.GcnRun

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.Spec.lean ====
/-
  The graph network both programs compute, as whole-array functions on the extended reals.

  One propagation layer maps node features h : [100000, 64] to
      relu( A·(h·W) + b ),
  where A·g sums, into each target node's row, the source rows of g scaled by the edge's coefficient, and adds the
  node's own row scaled by its self-loop coefficient. The pieces are named here: the dense product `dense`, the
  aggregation `aggregate` (a function of the product, the two index columns of the edge list and the two coefficient
  vectors; it is never opened: both programs apply it unchanged), a bias row added to every row `addRow`, and `relu`.
  The head is one more dense layer with bias and relu, and a last product into 16 columns with its bias.

  Read at an entry (r, j): `dense h W` is the sum over k of h (r, k) · W (k, j); `addRow a b` is a (r, j) + b (0, j);
  `relu a` is max (a (r, j)) 0.
-/
import proofs.«108074_j26499948216402_1_alg».proof.Proof.Gen.ReferenceIdeal.Read
import proofs.«108074_j26499948216402_1_alg».proof.Proof.LibPlainDot
import Idealize.ShloMosaic.Lib.ValueIdx
import Idealize.ShloMosaic.Lib.Pipeline.Value

noncomputable section

namespace Cert.Gcn

open Cert.ReferenceIdeal Cert.ReferenceIdeal.Gen Idealize.ShloMosaic Idealize.ShloMosaic.TcCoe Idealize.ShloMosaic.ValueIdx

abbrev Feat := FVec Ideal S100000x64 .f32
abbrev Out16 := FVec Ideal S100000x16 .f32
abbrev Mat := FVec Ideal S64x64 .f32
abbrev Mat16 := FVec Ideal S64x16 .f32
abbrev Row := FVec Ideal S1x64 .f32
abbrev Row16 := FVec Ideal S1x16 .f32
abbrev EdgeIx := IVec S1600000 32
abbrev EdgeW := FVec Ideal S1600000 .f32
abbrev NodeW := FVec Ideal S100000 .f32

/-- Node features times a 64×64 weight matrix. -/
def dense (h : Feat) (W : Mat) : Feat :=
  Host.dotGeneral (F := Ideal) dot_S100000x64_S64x64_S100000x64_1_0_0_1_n_n none h W

/-- Node features times the 64×16 output matrix. -/
def dense16 (h : Feat) (W : Mat16) : Out16 :=
  Host.dotGeneral (F := Ideal) dot_S100000x64_S64x16_S100000x16_1_0_0_1_n_n none h W

/-- A bias row added to every node's row. -/
def addRow (a : Feat) (b : Row) : Feat :=
  addf a (broadcastInDim S100000x64 ![0, 1] bcast_S1x64_S100000x64_0_1 b)

/-- The same for the 16-column output. -/
def addRow16 (a : Out16) (b : Row16) : Out16 :=
  addf a (broadcastInDim S100000x16 ![0, 1] bcast_S1x16_S100000x16_0_1 b)

/-- The positive part, entry by entry. -/
def relu (a : Feat) : Feat :=
  maximumf a (broadcastInDim S100000x64 ![] bcast_S_S100000x64 (constant (F := Ideal) S_ .f32 0x00000000#32))

/-- The normalized neighbourhood sum of one layer: into row `dst e` goes row `src e` of `g` (a negative source index
    wrapped by the node count) times the edge coefficient `cf e`, summed over the edges e; each row of `g` times the
    node's self-loop coefficient `sc` is added. -/
def aggregate (g : Feat) (s d : EdgeIx) (cf : EdgeW) (sc : NodeW) : Feat :=
  addf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 d)
      (mulf
        (Host.gather gather_S100000x64_S1600000x1_S1600000x64_1_0_n_n_0_1_164 g
          (broadcastInDim S1600000x1 ![0] bcast_S1600000_S1600000x1_0
            (select (cmpi .slt s (broadcastInDim S1600000 ![] bcast_S_S1600000 (constantI S_ 32 0#32)))
              (addi s (broadcastInDim S1600000 ![] bcast_S_S1600000 (constantI S_ 32 100000#32))) s)))
        (broadcastInDim S1600000x64 ![0, 1] bcast_S1600000x1_S1600000x64_0_1
          (broadcastInDim S1600000x1 ![0] bcast_S1600000_S1600000x1_0 cf))))
    (mulf g (broadcastInDim S100000x64 ![0, 1] bcast_S100000x1_S100000x64_0_1
      (broadcastInDim S100000x1 ![0] bcast_S100000_S100000x1_0 sc)))

/-! ## Read at an entry -/

theorem dense_apply (h : Feat) (W : Mat) (r : Fin 100000) (j : Fin 64) :
    dense h W (ix2 r j) = ∑ k : Fin 64, h (ix2 r k) * W (ix2 k j) := by
  unfold dense
  exact PlainDot.hostDot_apply (M := 100000) (K := 64) (N := 64) dot_S100000x64_S64x64_S100000x64_1_0_0_1_n_n rfl none h W (ix2 r j)

theorem dense16_apply (h : Feat) (W : Mat16) (r : Fin 100000) (j : Fin 16) :
    dense16 h W (ix2 r j) = ∑ k : Fin 64, h (ix2 r k) * W (ix2 k j) := by
  unfold dense16
  exact PlainDot.hostDot_apply (M := 100000) (K := 64) (N := 16) dot_S100000x64_S64x16_S100000x16_1_0_0_1_n_n rfl none h W (ix2 r j)

theorem addRow_apply (a : Feat) (b : Row) (r : Fin 100000) (j : Fin 64) :
    addRow a b (ix2 r j) = a (ix2 r j) + b (ix2 0 j) := by
  unfold addRow
  rw [addf_apply]
  refine congrArg (a (ix2 r j) + ·) ?_
  exact broadcastInDim_apply _ bcast_S1x64_S100000x64_0_1 b (ix2 r j) (ix2 0 j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])

theorem addRow16_apply (a : Out16) (b : Row16) (r : Fin 100000) (j : Fin 16) :
    addRow16 a b (ix2 r j) = a (ix2 r j) + b (ix2 0 j) := by
  unfold addRow16
  rw [addf_apply]
  refine congrArg (a (ix2 r j) + ·) ?_
  exact broadcastInDim_apply _ bcast_S1x16_S100000x16_0_1 b (ix2 r j) (ix2 0 j) (fun a => match a with
    | ⟨0, _⟩ => by show (0 : Nat) = if (1 : Nat) = 1 then 0 else r.val; rw [if_pos rfl]
    | ⟨1, _⟩ => by show j.val = if (16 : Nat) = 1 then 0 else j.val; rw [if_neg (by decide)])

theorem relu_apply (a : Feat) (i : S100000x64.Idx) :
    relu a i = max (a i) (Ideal.ofBits .f32 0x00000000#32) := by
  unfold relu
  rw [maximumf_apply]
  refine congrArg (max (a i) ·) ?_
  exact (broadcastInDim_apply _ bcast_S_S100000x64 (constant (F := Ideal) S_ .f32 0x00000000#32) i (fun a => a.elim0) (fun a => a.elim0))

end Cert.Gcn

end
-- ==== Proof.RefSide.lean ====
/-
  The reference program's stages, read as the network's layers.

  The reference computes, from the features x0, the edge list x1 and the weights and biases x2 … x11, three propagation
  layers and the two-layer head. Each of its stages is a named function of the arguments; here the stages that end a
  layer are shown to be `layer` of the previous layer's output — the dense product, the aggregation over the edge
  list's two index columns with the edge and self-loop coefficients, the bias row, the positive part — and the last
  stage the head. The reference recomputes the coefficients in every layer from the same edge list: the three copies
  are one function of x1.
-/
import proofs.«108074_j26499948216402_1_alg».proof.Proof.Spec

set_option maxRecDepth 16384

noncomputable section

namespace Cert.Gcn

open Cert.ReferenceIdeal Cert.ReferenceIdeal.Gen Cert.ReferenceIdeal.Read Idealize.ShloMosaic Idealize.ShloMosaic.TcCoe

/-- One propagation layer. -/
def layer (h : Feat) (W : Mat) (b : Row) (s d : EdgeIx) (cf : EdgeW) (sc : NodeW) : Feat :=
  relu (addRow (aggregate (dense h W) s d cf sc) b)

/-- The head: a dense layer with bias and positive part, then the output product with its bias. -/
def head (h : Feat) (W : Mat) (b : Row) (W' : Mat16) (b' : Row16) : Out16 :=
  addRow16 (dense16 (relu (addRow (dense h W) b)) W') b'

/-- The edge coefficients of the second and third layers are the first layer's. -/
theorem coef2 (x1 : (⟨S2x1600000, .i32⟩ : BufTy).Contents (Elt Ideal)) : val_main_v71 (F := Ideal) x1 = val_main_v26 (F := Ideal) x1 := rfl
theorem coef3 (x1 : (⟨S2x1600000, .i32⟩ : BufTy).Contents (Elt Ideal)) : val_main_v116 (F := Ideal) x1 = val_main_v26 (F := Ideal) x1 := rfl
/-- So are the self-loop coefficients. -/
theorem self2 (x1 : (⟨S2x1600000, .i32⟩ : BufTy).Contents (Elt Ideal)) : val_main_v85 (F := Ideal) x1 = val_main_v40 (F := Ideal) x1 := rfl
theorem self3 (x1 : (⟨S2x1600000, .i32⟩ : BufTy).Contents (Elt Ideal)) : val_main_v130 (F := Ideal) x1 = val_main_v40 (F := Ideal) x1 := rfl

/-- The bias rows of the later layers are spelt as the first layer's. -/
theorem row2 (b : FVec Ideal S64 .f32) : val_main_v90 (F := Ideal) b = val_main_v45 (F := Ideal) b := rfl
theorem row3 (b : FVec Ideal S64 .f32) : val_main_v135 (F := Ideal) b = val_main_v45 (F := Ideal) b := rfl
theorem row4 (b : FVec Ideal S64 .f32) : val_main_v140 (F := Ideal) b = val_main_v45 (F := Ideal) b := rfl

/-- The first layer's output stage. -/
theorem ref_layer1 (x0 : Feat) (x1 : (⟨S2x1600000, .i32⟩ : BufTy).Contents (Elt Ideal)) (x2 : Mat) (x3 : FVec Ideal S64 .f32) :
    val_main_v48 (F := Ideal) x0 x1 x2 x3
      = layer x0 x2 (val_main_v45 (F := Ideal) x3) (val_main_v1 (F := Ideal) x1) (val_main_v3 (F := Ideal) x1) (val_main_v26 (F := Ideal) x1) (val_main_v40 (F := Ideal) x1) := rfl

/-- The second layer's output stage. -/
theorem ref_layer2 (x0 : Feat) (x1 : (⟨S2x1600000, .i32⟩ : BufTy).Contents (Elt Ideal)) (x2 : Mat) (x3 : FVec Ideal S64 .f32) (x4 : Mat) (x5 : FVec Ideal S64 .f32) :
    val_main_v93 (F := Ideal) x0 x1 x2 x3 x4 x5
      = layer (val_main_v48 (F := Ideal) x0 x1 x2 x3) x4 (val_main_v90 (F := Ideal) x5) (val_main_v1 (F := Ideal) x1) (val_main_v3 (F := Ideal) x1) (val_main_v71 (F := Ideal) x1) (val_main_v85 (F := Ideal) x1) := rfl

/-- The third layer's output stage. -/
theorem ref_layer3 (x0 : Feat) (x1 : (⟨S2x1600000, .i32⟩ : BufTy).Contents (Elt Ideal)) (x2 : Mat) (x3 : FVec Ideal S64 .f32) (x4 : Mat) (x5 : FVec Ideal S64 .f32) (x6 : Mat) (x7 : FVec Ideal S64 .f32) :
    val_main_v138 (F := Ideal) x0 x1 x2 x3 x4 x5 x6 x7
      = layer (val_main_v93 (F := Ideal) x0 x1 x2 x3 x4 x5) x6 (val_main_v135 (F := Ideal) x7) (val_main_v1 (F := Ideal) x1) (val_main_v3 (F := Ideal) x1) (val_main_v116 (F := Ideal) x1) (val_main_v130 (F := Ideal) x1) := rfl

/-- The result stage. -/
theorem ref_head (x0 : Feat) (x1 : (⟨S2x1600000, .i32⟩ : BufTy).Contents (Elt Ideal)) (x2 : Mat) (x3 : FVec Ideal S64 .f32) (x4 : Mat) (x5 : FVec Ideal S64 .f32) (x6 : Mat) (x7 : FVec Ideal S64 .f32) (x8 : Mat) (x9 : FVec Ideal S64 .f32) (x10 : Mat16) (x11 : FVec Ideal S16 .f32) :
    val_main_v147 (F := Ideal) x0 x1 x2 x3 x4 x5 x6 x7 x8 x9 x10 x11
      = head (val_main_v138 (F := Ideal) x0 x1 x2 x3 x4 x5 x6 x7) x8 (val_main_v140 (F := Ideal) x9) x10 (val_main_v145 (F := Ideal) x11) := rfl

/-- The whole network as the reference's result stage computes it, the coefficients named once. -/
theorem ref_net (x0 : Feat) (x1 : (⟨S2x1600000, .i32⟩ : BufTy).Contents (Elt Ideal)) (x2 : Mat) (x3 : FVec Ideal S64 .f32) (x4 : Mat) (x5 : FVec Ideal S64 .f32) (x6 : Mat) (x7 : FVec Ideal S64 .f32) (x8 : Mat) (x9 : FVec Ideal S64 .f32) (x10 : Mat16) (x11 : FVec Ideal S16 .f32) :
    val_main_v147 (F := Ideal) x0 x1 x2 x3 x4 x5 x6 x7 x8 x9 x10 x11
      = head
          (layer
            (layer
              (layer x0 x2 (val_main_v45 (F := Ideal) x3) (val_main_v1 (F := Ideal) x1) (val_main_v3 (F := Ideal) x1) (val_main_v26 (F := Ideal) x1) (val_main_v40 (F := Ideal) x1))
              x4 (val_main_v45 (F := Ideal) x5) (val_main_v1 (F := Ideal) x1) (val_main_v3 (F := Ideal) x1) (val_main_v26 (F := Ideal) x1) (val_main_v40 (F := Ideal) x1))
            x6 (val_main_v45 (F := Ideal) x7) (val_main_v1 (F := Ideal) x1) (val_main_v3 (F := Ideal) x1) (val_main_v26 (F := Ideal) x1) (val_main_v40 (F := Ideal) x1))
          x8 (val_main_v45 (F := Ideal) x9) x10 (val_main_v145 (F := Ideal) x11) := by
  rw [ref_head, ref_layer3, ref_layer2, ref_layer1, coef2, coef3, self2, self3, row2, row3, row4]

end Cert.Gcn

end
-- ==== Proof.Region0.lean ====
/-
  Launch 0 of the kernel's program: one dense product, 5000 rows at a time.

  The grid has 20 points. At point t the body loads rows 5000·t … 5000·t + 4999 of the left array and the whole 64×64
  right array, multiplies them into a zero accumulator (the change of float format on the way in is the identity on
  the extended reals), and the rows are written back to the same rows of the result. So entry (5000·t + p, q) of the
  result is the sum over k of left (5000·t + p, k) · right (k, q): the result array is the dense product of the two
  arrays as the launch finds them, and the twenty row blocks cover it.
-/
import proofs.«108074_j26499948216402_1_alg».proof.Proof.Gen.KernelIdeal.Frame
import proofs.«108074_j26499948216402_1_alg».proof.Proof.Spec
import proofs.«108074_j26499948216402_1_alg».proof.Proof.LibPlainDot
import Idealize.ShloMosaic.Lib.Pipeline.Value
import Idealize.ShloMosaic.Lib.ValueIdx

set_option maxRecDepth 16384

noncomputable section

namespace Cert.Gcn.R0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the sum over the contracted coordinate. -/
theorem pay_apply (x0 : Vec Ideal S5000x64 .f32) (x1 : Vec Ideal S64x64 .f32) (p : Fin 5000) (q : Fin 64) :
    k0_pay1 x0 x1 (ix2 p q) = ∑ k : Fin 64, x0 (ix2 p k) * x1 (ix2 k q) := by
  unfold k0_pay1
  exact PlainDot.matmul_zero_apply (M := 5000) (K := 64) (N := 64) dot_S5000x64_S64x64_S5000x64_1_0_0_1_n_n rfl none _ _ (ix2 p q)

/-- The printed index maps over the grid: the left and result windows move down one block of rows per point, the
    right window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 5000·t … of the left array. -/
theorem left_apply (c : Dev nD) (t : Fin cfg0.N) (x : S5000x64.Idx) (i : S100000x64.Idx)
    (h0 : (i 0).val = 5000 * t.val + (x 0).val) (h1 : (i 1).val = (x 1).val) :
    (iblk0 V c 0 t : Vec Ideal S5000x64 .f32) x = (V c main_arg0 : S100000x64.Idx → EReal) i := by
  obtain ⟨e0, e1, -, -, -, -⟩ := idx_facts t
  unfold iblk0
  rw [View.read_apply]
  show V c main_arg0 _ = V c main_arg0 _
  refine congrArg _ ?_
  funext a
  apply Fin.ext
  match a with
  | ⟨0, _⟩ => show win0_0.index t 0 * 5000 + 1 * (x 0).val = (i 0).val; rw [e0, h0]; omega
  | ⟨1, _⟩ => show win0_0.index t 1 * 64 + 1 * (x 1).val = (i 1).val; rw [e1, h1]; omega

/-- The right window's block at every point is the whole right array. -/
theorem right_apply (c : Dev nD) (t : Fin cfg0.N) (x : S64x64.Idx) :
    (iblk0 V c 1 t : Vec Ideal S64x64 .f32) x = (V c main_arg2 : S64x64.Idx → EReal) x := by
  obtain ⟨-, -, e2, e3, -, -⟩ := idx_facts t
  unfold iblk0
  rw [View.read_apply]
  show V c main_arg2 _ = V c main_arg2 _
  refine congrArg _ ?_
  funext a
  apply Fin.ext
  match a with
  | ⟨0, _⟩ => show win0_1.index t 0 * 64 + 1 * (x 0).val = (x 0).val; rw [e2]; omega
  | ⟨1, _⟩ => show win0_1.index t 1 * 64 + 1 * (x 1).val = (x 1).val; rw [e3]; omega

/-- What the body leaves at point t, at an entry: the dense product's entry in row 5000·t + p. -/
theorem block_apply (c : Dev nD) (t : Fin cfg0.N) (p : Fin 5000) (q : Fin 64) (r : Fin 100000) (hr : r.val = 5000 * t.val + p.val) :
    k0_pay1 (iblk0 V c 0 t) (iblk0 V c 1 t) (ix2 p q) = dense (V c main_arg0) (V c main_arg2) (ix2 r q) := by
  rw [pay_apply, dense_apply]
  refine Finset.sum_congr rfl fun k _ => ?_
  rw [left_apply V c t (ix2 p k) (ix2 r k) hr rfl, right_apply V c t (ix2 k q)]

/-- What point t writes back is block t of the dense product. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨-, -, -, -, e4, e5⟩ := idx_facts t
  have hN : t.val < 20 := lt_of_lt_of_eq t.isLt N_0
  funext j
  obtain ⟨p, q, rfl⟩ : ∃ (p : Fin 5000) (q : Fin 64), j = ix2 p q := ⟨j 0, j 1, eq_ix2 j⟩
  rw [View.read_apply]
  have hp : p.val < 5000 := p.isLt
  have hidx : ((cfg0.win 2).blk t).view.emb (ix2 p q) = ix2 (⟨5000 * t.val + p.val, by omega⟩ : Fin 100000) q := by
    funext a
    apply Fin.ext
    match a with
    | ⟨0, _⟩ => show win0_2.index t 0 * 5000 + 1 * p.val = 5000 * t.val + p.val; rw [e4]; omega
    | ⟨1, _⟩ => show win0_2.index t 1 * 64 + 1 * q.val = q.val; rw [e5]; omega
  rw [hidx]
  exact block_apply V c t p q _ rfl

/-- An index of the result array is in point t's block iff its row is among the block's rows. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- The twenty row blocks cover the result array: row r is in the block of point r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- The result array after the launch is the dense product of the two arrays the launch found. -/
theorem final (c : Dev nD) : (dat0 V c).arrAt 2 cfg0.N = dense (V c main_arg0) (V c main_arg2) :=
  (dat0 V c).arrAt_eq_of_cover 2 (dense (V c main_arg0) (V c main_arg2)) (fun t _ => flushed_eq V c t) cover

end Cert.Gcn.R0

end
-- ==== Proof.Region1.lean ====
/-
  Launch 1 of the kernel's program: a bias row added to every row, then the positive part, 5000 rows at a time.

  The grid has 20 points. At point t the body loads rows 5000·t … 5000·t + 4999 of the aggregated features and the one
  bias row, adds the bias row to every loaded row (the casts of a block to its own shape are the identity), takes the
  maximum with zero, and the rows are written back to the same rows of the result. So entry (5000·t + p, q) of the
  result is max (a (5000·t + p, q) + b (0, q)) 0: the result array is `relu (addRow a b)` of the two arrays as the
  launch finds them, and the twenty row blocks cover it.
-/
import proofs.«108074_j26499948216402_1_alg».proof.Proof.Gen.KernelIdeal.Frame
import proofs.«108074_j26499948216402_1_alg».proof.Proof.Spec
import Idealize.ShloMosaic.Lib.Pipeline.Value
import Idealize.ShloMosaic.Lib.ValueIdx
import Idealize.ShloMosaic.Lib.ValueLayout

set_option maxRecDepth 16384

noncomputable section

namespace Cert.Gcn.R1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the loaded entry plus the bias row's entry in its column, cut at zero. -/
theorem pay_apply (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  simp only [shapeCast_self]
  rw [maximumf_apply, addf_apply, broadcast_apply, broadcastTo_1b_ab_apply]
  rfl

/-- The printed index maps over the grid: the feature and result windows move down one block of rows per point, the
    bias window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature window's block at point t is rows 5000·t … of the feature array. -/
theorem left_apply (c : Dev nD) (t : Fin cfg1.N) (x : S5000x64.Idx) (i : S100000x64.Idx)
    (h0 : (i 0).val = 5000 * t.val + (x 0).val) (h1 : (i 1).val = (x 1).val) :
    (iblk1 V c 0 t : Vec Ideal S5000x64 .f32) x = (V c main_v44 : S100000x64.Idx → EReal) i := by
  obtain ⟨e0, e1, -, -, -, -⟩ := idx_facts t
  unfold iblk1
  rw [View.read_apply]
  show V c main_v44 _ = V c main_v44 _
  refine congrArg _ ?_
  funext a
  apply Fin.ext
  match a with
  | ⟨0, _⟩ => show win1_0.index t 0 * 5000 + 1 * (x 0).val = (i 0).val; rw [e0, h0]; omega
  | ⟨1, _⟩ => show win1_0.index t 1 * 64 + 1 * (x 1).val = (i 1).val; rw [e1, h1]; omega

/-- The bias window's block at every point is the whole bias row. -/
theorem bias_apply (c : Dev nD) (t : Fin cfg1.N) (x : S1x64.Idx) :
    (iblk1 V c 1 t : Vec Ideal S1x64 .f32) x = (V c main_v45 : S1x64.Idx → EReal) x := by
  obtain ⟨-, -, e2, e3, -, -⟩ := idx_facts t
  unfold iblk1
  rw [View.read_apply]
  show V c main_v45 _ = V c main_v45 _
  refine congrArg _ ?_
  funext a
  apply Fin.ext
  match a with
  | ⟨0, _⟩ => show win1_1.index t 0 * 1 + 1 * (x 0).val = (x 0).val; rw [e2]; omega
  | ⟨1, _⟩ => show win1_1.index t 1 * 64 + 1 * (x 1).val = (x 1).val; rw [e3]; omega

/-- What the body leaves at point t, at an entry: the biased, cut entry in row 5000·t + p. -/
theorem block_apply (c : Dev nD) (t : Fin cfg1.N) (p : Fin 5000) (q : Fin 64) (r : Fin 100000) (hr : r.val = 5000 * t.val + p.val) :
    k1_pay1 (iblk1 V c 0 t) (iblk1 V c 1 t) (ix2 p q) = relu (addRow (V c main_v44) (V c main_v45)) (ix2 r q) := by
  rw [pay_apply, relu_apply, addRow_apply, left_apply V c t (ix2 p q) (ix2 r q) hr rfl, bias_apply V c t (ix2 (0 : Fin 1) q)]

/-- What point t writes back is block t of the biased, cut array. -/
theorem flushed_eq (c : Dev nD) (t : Fin cfg1.N) :
    (dat1 V c).flushed 2 t = ((cfg1.win 2).blk t).view.read (Elt Ideal) (relu (addRow (V c main_v44) (V c main_v45))) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨-, -, -, -, e4, e5⟩ := idx_facts t
  have hN : t.val < 20 := lt_of_lt_of_eq t.isLt N_1
  funext j
  obtain ⟨p, q, rfl⟩ : ∃ (p : Fin 5000) (q : Fin 64), j = ix2 p q := ⟨j 0, j 1, eq_ix2 j⟩
  rw [View.read_apply]
  have hp : p.val < 5000 := p.isLt
  have hidx : ((cfg1.win 2).blk t).view.emb (ix2 p q) = ix2 (⟨5000 * t.val + p.val, by omega⟩ : Fin 100000) q := by
    funext a
    apply Fin.ext
    match a with
    | ⟨0, _⟩ => show win1_2.index t 0 * 5000 + 1 * p.val = 5000 * t.val + p.val; rw [e4]; omega
    | ⟨1, _⟩ => show win1_2.index t 1 * 64 + 1 * q.val = q.val; rw [e5]; omega
  rw [hidx]
  exact block_apply V c t p q _ rfl

/-- An index of the result array is in point t's block iff its row is among the block's rows. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v46).slice (win1_2.rect t)).set ↔ _
  rw [View.set_slice_whole, Rect.mem_set_unit]
  exact Iff.rfl

/-- The twenty row blocks cover the result array: row r is in the block of point r / 5000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 64 ≤ (i 1).val ∧ (i 1).val < win1_2.index t (1 : Fin 2) * 64 + 64; rw [e5]; omega

/-- The result array after the launch is the biased, cut array of what the launch found. -/
theorem final (c : Dev nD) : (dat1 V c).arrAt 2 cfg1.N = relu (addRow (V c main_v44) (V c main_v45)) :=
  (dat1 V c).arrAt_eq_of_cover 2 (relu (addRow (V c main_v44) (V c main_v45))) (fun t _ => flushed_eq V c t) cover

end Cert.Gcn.R1

end
-- ==== Proof.Region2.lean ====
/-
  Launch 2 of the kernel's program: one dense product, 5000 rows at a time.

  The grid has 20 points. At point t the body loads rows 5000·t … 5000·t + 4999 of the left array and the whole 64×64
  right array, multiplies them into a zero accumulator (the cast of the block to its own shape and the change of float format on the
  way in are the identity on the extended reals), and the rows are written back to the same rows of the result. So entry (5000·t + p, q) of the
  result is the sum over k of left (5000·t + p, k) · right (k, q): the result array is the dense product of the two
  arrays as the launch finds them, and the twenty row blocks cover it.
-/
import proofs.«108074_j26499948216402_1_alg».proof.Proof.Gen.KernelIdeal.Frame
import proofs.«108074_j26499948216402_1_alg».proof.Proof.Spec
import proofs.«108074_j26499948216402_1_alg».proof.Proof.LibPlainDot
import Idealize.ShloMosaic.Lib.Pipeline.Value
import Idealize.ShloMosaic.Lib.ValueIdx

set_option maxRecDepth 16384

noncomputable section

namespace Cert.Gcn.R2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the sum over the contracted coordinate. -/
theorem pay_apply (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  simp only [shapeCast_self]
  exact PlainDot.matmul_zero_apply (M := 5000) (K := 64) (N := 64) dot_S5000x64_S64x64_S5000x64_1_0_0_1_n_n rfl none _ _ (ix2 p q)

/-- The printed index maps over the grid: the left and result windows move down one block of rows per point, the
    right window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 5000·t … of the left array. -/
theorem left_apply (c : Dev nD) (t : Fin cfg2.N) (x : S5000x64.Idx) (i : S100000x64.Idx)
    (h0 : (i 0).val = 5000 * t.val + (x 0).val) (h1 : (i 1).val = (x 1).val) :
    (iblk2 V c 0 t : Vec Ideal S5000x64 .f32) x = (V c main_v46 : S100000x64.Idx → EReal) i := by
  obtain ⟨e0, e1, -, -, -, -⟩ := idx_facts t
  unfold iblk2
  rw [View.read_apply]
  show V c main_v46 _ = V c main_v46 _
  refine congrArg _ ?_
  funext a
  apply Fin.ext
  match a with
  | ⟨0, _⟩ => show win2_0.index t 0 * 5000 + 1 * (x 0).val = (i 0).val; rw [e0, h0]; omega
  | ⟨1, _⟩ => show win2_0.index t 1 * 64 + 1 * (x 1).val = (i 1).val; rw [e1, h1]; omega

/-- The right window's block at every point is the whole right array. -/
theorem right_apply (c : Dev nD) (t : Fin cfg2.N) (x : S64x64.Idx) :
    (iblk2 V c 1 t : Vec Ideal S64x64 .f32) x = (V c main_arg4 : S64x64.Idx → EReal) x := by
  obtain ⟨-, -, e2, e3, -, -⟩ := idx_facts t
  unfold iblk2
  rw [View.read_apply]
  show V c main_arg4 _ = V c main_arg4 _
  refine congrArg _ ?_
  funext a
  apply Fin.ext
  match a with
  | ⟨0, _⟩ => show win2_1.index t 0 * 64 + 1 * (x 0).val = (x 0).val; rw [e2]; omega
  | ⟨1, _⟩ => show win2_1.index t 1 * 64 + 1 * (x 1).val = (x 1).val; rw [e3]; omega

/-- What the body leaves at point t, at an entry: the dense product's entry in row 5000·t + p. -/
theorem block_apply (c : Dev nD) (t : Fin cfg2.N) (p : Fin 5000) (q : Fin 64) (r : Fin 100000) (hr : r.val = 5000 * t.val + p.val) :
    k2_pay1 (iblk2 V c 0 t) (iblk2 V c 1 t) (ix2 p q) = dense (V c main_v46) (V c main_arg4) (ix2 r q) := by
  rw [pay_apply, dense_apply]
  refine Finset.sum_congr rfl fun k _ => ?_
  rw [left_apply V c t (ix2 p k) (ix2 r k) hr rfl, right_apply V c t (ix2 k q)]

/-- What point t writes back is block t of the dense product. -/
theorem flushed_eq (c : Dev nD) (t : Fin cfg2.N) :
    (dat2 V c).flushed 2 t = ((cfg2.win 2).blk t).view.read (Elt Ideal) (dense (V c main_v46) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨-, -, -, -, e4, e5⟩ := idx_facts t
  have hN : t.val < 20 := lt_of_lt_of_eq t.isLt N_2
  funext j
  obtain ⟨p, q, rfl⟩ : ∃ (p : Fin 5000) (q : Fin 64), j = ix2 p q := ⟨j 0, j 1, eq_ix2 j⟩
  rw [View.read_apply]
  have hp : p.val < 5000 := p.isLt
  have hidx : ((cfg2.win 2).blk t).view.emb (ix2 p q) = ix2 (⟨5000 * t.val + p.val, by omega⟩ : Fin 100000) q := by
    funext a
    apply Fin.ext
    match a with
    | ⟨0, _⟩ => show win2_2.index t 0 * 5000 + 1 * p.val = 5000 * t.val + p.val; rw [e4]; omega
    | ⟨1, _⟩ => show win2_2.index t 1 * 64 + 1 * q.val = q.val; rw [e5]; omega
  rw [hidx]
  exact block_apply V c t p q _ rfl

/-- An index of the result array is in point t's block iff its row is among the block's rows. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- The twenty row blocks cover the result array: row r is in the block of point r / 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- The result array after the launch is the dense product of the two arrays the launch found. -/
theorem final (c : Dev nD) : (dat2 V c).arrAt 2 cfg2.N = dense (V c main_v46) (V c main_arg4) :=
  (dat2 V c).arrAt_eq_of_cover 2 (dense (V c main_v46) (V c main_arg4)) (fun t _ => flushed_eq V c t) cover

end Cert.Gcn.R2

end
-- ==== Proof.Region3.lean ====
/-
  Launch 3 of the kernel's program: a bias row added to every row, then the positive part, 5000 rows at a time.

  The grid has 20 points. At point t the body loads rows 5000·t … 5000·t + 4999 of the aggregated features and the one
  bias row, adds the bias row to every loaded row (the casts of a block to its own shape are the identity), takes the
  maximum with zero, and the rows are written back to the same rows of the result. So entry (5000·t + p, q) of the
  result is max (a (5000·t + p, q) + b (0, q)) 0: the result array is `relu (addRow a b)` of the two arrays as the
  launch finds them, and the twenty row blocks cover it.
-/
import proofs.«108074_j26499948216402_1_alg».proof.Proof.Gen.KernelIdeal.Frame
import proofs.«108074_j26499948216402_1_alg».proof.Proof.Spec
import Idealize.ShloMosaic.Lib.Pipeline.Value
import Idealize.ShloMosaic.Lib.ValueIdx
import Idealize.ShloMosaic.Lib.ValueLayout

set_option maxRecDepth 16384

noncomputable section

namespace Cert.Gcn.R3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the loaded entry plus the bias row's entry in its column, cut at zero. -/
theorem pay_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) (Ideal.ofBits .f32 0x00000000#32) := by
  unfold k3_pay1
  simp only [shapeCast_self]
  rw [maximumf_apply, addf_apply, broadcast_apply, broadcastTo_1b_ab_apply]
  rfl

/-- The printed index maps over the grid: the feature and result windows move down one block of rows per point, the
    bias window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature window's block at point t is rows 5000·t … of the feature array. -/
theorem left_apply (c : Dev nD) (t : Fin cfg3.N) (x : S5000x64.Idx) (i : S100000x64.Idx)
    (h0 : (i 0).val = 5000 * t.val + (x 0).val) (h1 : (i 1).val = (x 1).val) :
    (iblk3 V c 0 t : Vec Ideal S5000x64 .f32) x = (V c main_v64 : S100000x64.Idx → EReal) i := by
  obtain ⟨e0, e1, -, -, -, -⟩ := idx_facts t
  unfold iblk3
  rw [View.read_apply]
  show V c main_v64 _ = V c main_v64 _
  refine congrArg _ ?_
  funext a
  apply Fin.ext
  match a with
  | ⟨0, _⟩ => show win3_0.index t 0 * 5000 + 1 * (x 0).val = (i 0).val; rw [e0, h0]; omega
  | ⟨1, _⟩ => show win3_0.index t 1 * 64 + 1 * (x 1).val = (i 1).val; rw [e1, h1]; omega

/-- The bias window's block at every point is the whole bias row. -/
theorem bias_apply (c : Dev nD) (t : Fin cfg3.N) (x : S1x64.Idx) :
    (iblk3 V c 1 t : Vec Ideal S1x64 .f32) x = (V c main_v65 : S1x64.Idx → EReal) x := by
  obtain ⟨-, -, e2, e3, -, -⟩ := idx_facts t
  unfold iblk3
  rw [View.read_apply]
  show V c main_v65 _ = V c main_v65 _
  refine congrArg _ ?_
  funext a
  apply Fin.ext
  match a with
  | ⟨0, _⟩ => show win3_1.index t 0 * 1 + 1 * (x 0).val = (x 0).val; rw [e2]; omega
  | ⟨1, _⟩ => show win3_1.index t 1 * 64 + 1 * (x 1).val = (x 1).val; rw [e3]; omega

/-- What the body leaves at point t, at an entry: the biased, cut entry in row 5000·t + p. -/
theorem block_apply (c : Dev nD) (t : Fin cfg3.N) (p : Fin 5000) (q : Fin 64) (r : Fin 100000) (hr : r.val = 5000 * t.val + p.val) :
    k3_pay1 (iblk3 V c 0 t) (iblk3 V c 1 t) (ix2 p q) = relu (addRow (V c main_v64) (V c main_v65)) (ix2 r q) := by
  rw [pay_apply, relu_apply, addRow_apply, left_apply V c t (ix2 p q) (ix2 r q) hr rfl, bias_apply V c t (ix2 (0 : Fin 1) q)]

/-- What point t writes back is block t of the biased, cut array. -/
theorem flushed_eq (c : Dev nD) (t : Fin cfg3.N) :
    (dat3 V c).flushed 2 t = ((cfg3.win 2).blk t).view.read (Elt Ideal) (relu (addRow (V c main_v64) (V c main_v65))) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨-, -, -, -, e4, e5⟩ := idx_facts t
  have hN : t.val < 20 := lt_of_lt_of_eq t.isLt N_3
  funext j
  obtain ⟨p, q, rfl⟩ : ∃ (p : Fin 5000) (q : Fin 64), j = ix2 p q := ⟨j 0, j 1, eq_ix2 j⟩
  rw [View.read_apply]
  have hp : p.val < 5000 := p.isLt
  have hidx : ((cfg3.win 2).blk t).view.emb (ix2 p q) = ix2 (⟨5000 * t.val + p.val, by omega⟩ : Fin 100000) q := by
    funext a
    apply Fin.ext
    match a with
    | ⟨0, _⟩ => show win3_2.index t 0 * 5000 + 1 * p.val = 5000 * t.val + p.val; rw [e4]; omega
    | ⟨1, _⟩ => show win3_2.index t 1 * 64 + 1 * q.val = q.val; rw [e5]; omega
  rw [hidx]
  exact block_apply V c t p q _ rfl

/-- An index of the result array is in point t's block iff its row is among the block's rows. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v66).slice (win3_2.rect t)).set ↔ _
  rw [View.set_slice_whole, Rect.mem_set_unit]
  exact Iff.rfl

/-- The twenty row blocks cover the result array: row r is in the block of point r / 5000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

/-- The result array after the launch is the biased, cut array of what the launch found. -/
theorem final (c : Dev nD) : (dat3 V c).arrAt 2 cfg3.N = relu (addRow (V c main_v64) (V c main_v65)) :=
  (dat3 V c).arrAt_eq_of_cover 2 (relu (addRow (V c main_v64) (V c main_v65))) (fun t _ => flushed_eq V c t) cover

end Cert.Gcn.R3

end
-- ==== Proof.Region4.lean ====
/-
  Launch 4 of the kernel's program: one dense product, 5000 rows at a time.

  The grid has 20 points. At point t the body loads rows 5000·t … 5000·t + 4999 of the left array and the whole 64×64
  right array, multiplies them into a zero accumulator (the cast of the block to its own shape and the change of float format on the
  way in are the identity on the extended reals), and the rows are written back to the same rows of the result. So entry (5000·t + p, q) of the
  result is the sum over k of left (5000·t + p, k) · right (k, q): the result array is the dense product of the two
  arrays as the launch finds them, and the twenty row blocks cover it.
-/
import proofs.«108074_j26499948216402_1_alg».proof.Proof.Gen.KernelIdeal.Frame
import proofs.«108074_j26499948216402_1_alg».proof.Proof.Spec
import proofs.«108074_j26499948216402_1_alg».proof.Proof.LibPlainDot
import Idealize.ShloMosaic.Lib.Pipeline.Value
import Idealize.ShloMosaic.Lib.ValueIdx

set_option maxRecDepth 16384

noncomputable section

namespace Cert.Gcn.R4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the sum over the contracted coordinate. -/
theorem pay_apply (x0 : Vec Ideal S5000x64 .f32) (x1 : Vec Ideal S64x64 .f32) (p : Fin 5000) (q : Fin 64) :
    k4_pay1 x0 x1 (ix2 p q) = ∑ k : Fin 64, x0 (ix2 p k) * x1 (ix2 k q) := by
  unfold k4_pay1
  simp only [shapeCast_self]
  exact PlainDot.matmul_zero_apply (M := 5000) (K := 64) (N := 64) dot_S5000x64_S64x64_S5000x64_1_0_0_1_n_n rfl none _ _ (ix2 p q)

/-- The printed index maps over the grid: the left and result windows move down one block of rows per point, the
    right window stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left window's block at point t is rows 5000·t … of the left array. -/
theorem left_apply (c : Dev nD) (t : Fin cfg4.N) (x : S5000x64.Idx) (i : S100000x64.Idx)
    (h0 : (i 0).val = 5000 * t.val + (x 0).val) (h1 : (i 1).val = (x 1).val) :
    (iblk4 V c 0 t : Vec Ideal S5000x64 .f32) x = (V c main_v66 : S100000x64.Idx → EReal) i := by
  obtain ⟨e0, e1, -, -, -, -⟩ := idx_facts t
  unfold iblk4
  rw [View.read_apply]
  show V c main_v66 _ = V c main_v66 _
  refine congrArg _ ?_
  funext a
  apply Fin.ext
  match a with
  | ⟨0, _⟩ => show win4_0.index t 0 * 5000 + 1 * (x 0).val = (i 0).val; rw [e0, h0]; omega
  | ⟨1, _⟩ => show win4_0.index t 1 * 64 + 1 * (x 1).val = (i 1).val; rw [e1, h1]; omega

/-- The right window's block at every point is the whole right array. -/
theorem right_apply (c : Dev nD) (t : Fin cfg4.N) (x : S64x64.Idx) :
    (iblk4 V c 1 t : Vec Ideal S64x64 .f32) x = (V c main_arg6 : S64x64.Idx → EReal) x := by
  obtain ⟨-, -, e2, e3, -, -⟩ := idx_facts t
  unfold iblk4
  rw [View.read_apply]
  show V c main_arg6 _ = V c main_arg6 _
  refine congrArg _ ?_
  funext a
  apply Fin.ext
  match a with
  | ⟨0, _⟩ => show win4_1.index t 0 * 64 + 1 * (x 0).val = (x 0).val; rw [e2]; omega
  | ⟨1, _⟩ => show win4_1.index t 1 * 64 + 1 * (x 1).val = (x 1).val; rw [e3]; omega

/-- What the body leaves at point t, at an entry: the dense product's entry in row 5000·t + p. -/
theorem block_apply (c : Dev nD) (t : Fin cfg4.N) (p : Fin 5000) (q : Fin 64) (r : Fin 100000) (hr : r.val = 5000 * t.val + p.val) :
    k4_pay1 (iblk4 V c 0 t) (iblk4 V c 1 t) (ix2 p q) = dense (V c main_v66) (V c main_arg6) (ix2 r q) := by
  rw [pay_apply, dense_apply]
  refine Finset.sum_congr rfl fun k _ => ?_
  rw [left_apply V c t (ix2 p k) (ix2 r k) hr rfl, right_apply V c t (ix2 k q)]

/-- What point t writes back is block t of the dense product. -/
theorem flushed_eq (c : Dev nD) (t : Fin cfg4.N) :
    (dat4 V c).flushed 2 t = ((cfg4.win 2).blk t).view.read (Elt Ideal) (dense (V c main_v66) (V c main_arg6)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  obtain ⟨-, -, -, -, e4, e5⟩ := idx_facts t
  have hN : t.val < 20 := lt_of_lt_of_eq t.isLt N_4
  funext j
  obtain ⟨p, q, rfl⟩ : ∃ (p : Fin 5000) (q : Fin 64), j = ix2 p q := ⟨j 0, j 1, eq_ix2 j⟩
  rw [View.read_apply]
  have hp : p.val < 5000 := p.isLt
  have hidx : ((cfg4.win 2).blk t).view.emb (ix2 p q) = ix2 (⟨5000 * t.val + p.val, by omega⟩ : Fin 100000) q := by
    funext a
    apply Fin.ext
    match a with
    | ⟨0, _⟩ => show win4_2.index t 0 * 5000 + 1 * p.val = 5000 * t.val + p.val; rw [e4]; omega
    | ⟨1, _⟩ => show win4_2.index t 1 * 64 + 1 * q.val = q.val; rw [e5]; omega
  rw [hidx]
  exact block_apply V c t p q _ rfl

/-- An index of the result array is in point t's block iff its row is among the block's rows. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v67).slice (win4_2.rect t)).set ↔ _
  rw [View.set_slice_whole, Rect.mem_set_unit]
  exact Iff.rfl

/-- The twenty row blocks cover the result array: row r is in the block of point r / 5000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  obtain ⟨-, -, -, -, e4, e5⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 64 ≤ (i 1).val ∧ (i 1).val < win4_2.index t (1 : Fin 2) * 64 + 64; rw [e5]; omega

/-- The result array after the launch is the dense product of the two arrays the launch found. -/
theorem final (c : Dev nD) : (dat4 V c).arrAt 2 cfg4.N = dense (V c main_v66) (V c main_arg6) :=
  (dat4 V c).arrAt_eq_of_cover 2 (dense (V c main_v66) (V c main_arg6)) (fun t _ => flushed_eq V c t) cover

end Cert.Gcn.R4

end
-- ==== Proof.Region5.lean ====
/-
  Launch 5 of the kernel's program: a bias row added to every row, then the positive part, 5000 rows at a time.

  The grid has 20 points. At point t the body loads rows 5000·t … 5000·t + 4999 of the aggregated features and the one
  bias row, adds the bias row to every loaded row (the casts of a block to its own shape are the identity), takes the
  maximum with zero, and the rows are written back to the same rows of the result. So entry (5000·t + p, q) of the
  result is max (a (5000·t + p, q) + b (0, q)) 0: the result array is `relu (addRow a b)` of the two arrays as the
  launch finds them, and the twenty row blocks cover it.
-/
import proofs.«108074_j26499948216402_1_alg».proof.Proof.Gen.KernelIdeal.Frame
import proofs.«108074_j26499948216402_1_alg».proof.Proof.Spec
import Idealize.ShloMosaic.Lib.Pipeline.Value
import Idealize.ShloMosaic.Lib.ValueIdx
import Idealize.ShloMosaic.Lib.ValueLayout

set_option maxRecDepth 16384

noncomputable section

namespace Cert.Gcn.R5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the loaded entry plus the bias row's entry in its column, cut at zero. -/
theorem pay_apply (x0 : Vec Ideal S5000x64 .f32) (x1 : Vec Ideal S1x64 .f32) (p : Fin 5000) (q : Fin 64) :
    k5_pay1 x0 x1 (ix2 p q) = max (x0 (ix2 p q) + x1 (ix2 (0 : Fin 1) q)) (Ideal.ofBits .f32 0x00000000#32) := by
  unfold k5_pay1
  simp only [shapeCast_self]
  rw [maximumf_apply, addf_apply, broadcast_apply, broadcastTo_1b_ab_apply]
  rfl

/-- The printed index maps over the grid: the feature and result windows move down one block of rows per point, the
    bias window stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The feature window's block at point t is rows 5000·t … of the feature array. -/
theorem left_apply (c : Dev nD) (t : Fin cfg5.N) (x : S5000x64.Idx) (i : S100000x64.Idx)
    (h0 : (i 0).val = 5000 * t.val + (x 0).val) (h1 : (i 1).val = (x 1).val) :
    (iblk5 V c 0 t : Vec Ideal S5000x64 .f32) x = (V c main_v84 : S100000x64.Idx → EReal) i := by
  obtain ⟨e0, e1, -, -, -, -⟩ := idx_facts t
  unfold iblk5
  rw [View.read_apply]
  show V c main_v84 _ = V c main_v84 _
  refine congrArg _ ?_
  funext a
  apply Fin.ext
  match a with
  | ⟨0, _⟩ => show win5_0.index t 0 * 5000 + 1 * (x 0).val = (i 0).val; rw [e0, h0]; omega
  | ⟨1, _⟩ => show win5_0.index t 1 * 64 + 1 * (x 1).val = (i 1).val; rw [e1, h1]; omega

/-- The bias window's block at every point is the whole bias row. -/
theorem bias_apply (c : Dev nD) (t : Fin cfg5.N) (x : S1x64.Idx) :
    (iblk5 V c 1 t : Vec Ideal S1x64 .f32) x = (V c main_v85 : S1x64.Idx → EReal) x := by
  obtain ⟨-, -, e2, e3, -, -⟩ := idx_facts t
  unfold iblk5
  rw [View.read_apply]
  show V c main_v85 _ = V c main_v85 _
  refine congrArg _ ?_
  funext a
  apply Fin.ext
  match a with
  | ⟨0, _⟩ => show win5_1.index t 0 * 1 + 1 * (x 0).val = (x 0).val; rw [e2]; omega
  | ⟨1, _⟩ => show win5_1.index t 1 * 64 + 1 * (x 1).val = (x 1).val; rw [e3]; omega

/-- What the body leaves at point t, at an entry: the biased, cut entry in row 5000·t + p. -/
theorem block_apply (c : Dev nD) (t : Fin cfg5.N) (p : Fin 5000) (q : Fin 64) (r : Fin 100000) (hr : r.val = 5000 * t.val + p.val) :
    k5_pay1 (iblk5 V c 0 t) (iblk5 V c 1 t) (ix2 p q) = relu (addRow (V c main_v84) (V c main_v85)) (ix2 r q) := by
  rw [pay_apply, relu_apply, addRow_apply, left_apply V c t (ix2 p q) (ix2 r q) hr rfl, bias_apply V c t (ix2 (0 : Fin 1) q)]

/-- What point t writes back is block t of the biased, cut array. -/
theorem flushed_eq (c : Dev nD) (t : Fin cfg5.N) :
    (dat5 V c).flushed 2 t = ((cfg5.win 2).blk t).view.read (Elt Ideal) (relu (addRow (V c main_v84) (V c main_v85))) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨-, -, -, -, e4, e5⟩ := idx_facts t
  have hN : t.val < 20 := lt_of_lt_of_eq t.isLt N_5
  funext j
  obtain ⟨p, q, rfl⟩ : ∃ (p : Fin 5000) (q : Fin 64), j = ix2 p q := ⟨j 0, j 1, eq_ix2 j⟩
  rw [View.read_apply]
  have hp : p.val < 5000 := p.isLt
  have hidx : ((cfg5.win 2).blk t).view.emb (ix2 p q) = ix2 (⟨5000 * t.val + p.val, by omega⟩ : Fin 100000) q := by
    funext a
    apply Fin.ext
    match a with
    | ⟨0, _⟩ => show win5_2.index t 0 * 5000 + 1 * p.val = 5000 * t.val + p.val; rw [e4]; omega
    | ⟨1, _⟩ => show win5_2.index t 1 * 64 + 1 * q.val = q.val; rw [e5]; omega
  rw [hidx]
  exact block_apply V c t p q _ rfl

/-- An index of the result array is in point t's block iff its row is among the block's rows. -/
theorem mem_blk (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v86).slice (win5_2.rect t)).set ↔ _
  rw [View.set_slice_whole, Rect.mem_set_unit]
  exact Iff.rfl

/-- The twenty row blocks cover the result array: row r is in the block of point r / 5000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  let t : Fin cfg5.N := ⟨(i 0).val / 5000, by rw [hN]; omega⟩
  obtain ⟨-, -, -, -, e4, e5⟩ := idx_facts t
  have ht : t.val = (i 0).val / 5000 := rfl
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; rw [e4, ht]; omega
  | ⟨1, _⟩ => show win5_2.index t (1 : Fin 2) * 64 ≤ (i 1).val ∧ (i 1).val < win5_2.index t (1 : Fin 2) * 64 + 64; rw [e5]; omega

/-- The result array after the launch is the biased, cut array of what the launch found. -/
theorem final (c : Dev nD) : (dat5 V c).arrAt 2 cfg5.N = relu (addRow (V c main_v84) (V c main_v85)) :=
  (dat5 V c).arrAt_eq_of_cover 2 (relu (addRow (V c main_v84) (V c main_v85))) (fun t _ => flushed_eq V c t) cover

end Cert.Gcn.R5

end
-- ==== Proof.Region6.lean ====
/-
  Launch 6 of the kernel's program: a dense layer with bias and positive part, 5000 rows at a time.

  The grid has 20 points. At point t the body loads rows 5000·t … 5000·t + 4999 of the features, the whole 64×64 weight
  matrix and the one bias row; multiplies the rows by the matrix into a zero accumulator (the cast of a block to its own
  shape and the change of float format on the way in are the identity on the extended reals), adds the bias row to every
  row and takes the maximum with zero; the rows are written back to the same rows of the result. So entry
  (5000·t + p, q) of the result is max (Σ_k h (5000·t + p, k) · W (k, q) + b (0, q)) 0: the result array is
  `relu (addRow (dense h W) b)` of the three arrays as the launch finds them, and the twenty row blocks cover it.
-/
import proofs.«108074_j26499948216402_1_alg».proof.Proof.Gen.KernelIdeal.Frame
import proofs.«108074_j26499948216402_1_alg».proof.Proof.Spec
import proofs.«108074_j26499948216402_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.Gcn.R6

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block. -/
theorem pay_apply (x0 : Vec Ideal S5000x64 .f32) (x1 : Vec Ideal S64x64 .f32) (x2 : Vec Ideal S1x64 .f32) (p : Fin 5000) (q : Fin 64) :
    k6_pay1 x0 x1 x2 (ix2 p q) = max ((∑ k : Fin 64, x0 (ix2 p k) * x1 (ix2 k q)) + x2 (ix2 (0 : Fin 1) q)) (Ideal.ofBits .f32 0x00000000#32) := by
  unfold k6_pay1
  simp only [shapeCast_self]
  rw [maximumf_apply, addf_apply, broadcast_apply, broadcastTo_1b_ab_apply]
  refine congrArg₂ max (congrArg (· + x2 (ix2 (0 : Fin 1) q)) ?_) rfl
  exact PlainDot.matmul_zero_apply (M := 5000) (K := 64) (N := 64) dot_S5000x64_S64x64_S5000x64_1_0_0_1_n_n rfl none _ _ (ix2 p q)

/-- The printed index maps over the grid: the feature and result windows move down one block of rows per point, the
    weight and bias windows stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The feature window's block at point t is rows 5000·t … of the feature array. -/
theorem left_apply (c : Dev nD) (t : Fin cfg6.N) (x : S5000x64.Idx) (i : S100000x64.Idx)
    (h0 : (i 0).val = 5000 * t.val + (x 0).val) (h1 : (i 1).val = (x 1).val) :
    (iblk6 V c 0 t : Vec Ideal S5000x64 .f32) x = (V c main_v86 : S100000x64.Idx → EReal) i := by
  obtain ⟨e0, e1, -, -, -, -, -, -⟩ := idx_facts t
  unfold iblk6
  rw [View.read_apply]
  show V c main_v86 _ = V c main_v86 _
  refine congrArg _ ?_
  funext a
  apply Fin.ext
  match a with
  | ⟨0, _⟩ => show win6_0.index t 0 * 5000 + 1 * (x 0).val = (i 0).val; rw [e0, h0]; omega
  | ⟨1, _⟩ => show win6_0.index t 1 * 64 + 1 * (x 1).val = (i 1).val; rw [e1, h1]; omega

/-- The weight window's block at every point is the whole weight matrix. -/
theorem right_apply (c : Dev nD) (t : Fin cfg6.N) (x : S64x64.Idx) :
    (iblk6 V c 1 t : Vec Ideal S64x64 .f32) x = (V c main_arg8 : S64x64.Idx → EReal) x := by
  obtain ⟨-, -, e2, e3, -, -, -, -⟩ := idx_facts t
  unfold iblk6
  rw [View.read_apply]
  show V c main_arg8 _ = V c main_arg8 _
  refine congrArg _ ?_
  funext a
  apply Fin.ext
  match a with
  | ⟨0, _⟩ => show win6_1.index t 0 * 64 + 1 * (x 0).val = (x 0).val; rw [e2]; omega
  | ⟨1, _⟩ => show win6_1.index t 1 * 64 + 1 * (x 1).val = (x 1).val; rw [e3]; omega

/-- The bias window's block at every point is the whole bias row. -/
theorem bias_apply (c : Dev nD) (t : Fin cfg6.N) (x : S1x64.Idx) :
    (iblk6 V c 2 t : Vec Ideal S1x64 .f32) x = (V c main_v87 : S1x64.Idx → EReal) x := by
  obtain ⟨-, -, -, -, e4, e5, -, -⟩ := idx_facts t
  unfold iblk6
  rw [View.read_apply]
  show V c main_v87 _ = V c main_v87 _
  refine congrArg _ ?_
  funext a
  apply Fin.ext
  match a with
  | ⟨0, _⟩ => show win6_2.index t 0 * 1 + 1 * (x 0).val = (x 0).val; rw [e4]; omega
  | ⟨1, _⟩ => show win6_2.index t 1 * 64 + 1 * (x 1).val = (x 1).val; rw [e5]; omega

/-- What the body leaves at point t, at an entry: the layer's entry in row 5000·t + p. -/
theorem block_apply (c : Dev nD) (t : Fin cfg6.N) (p : Fin 5000) (q : Fin 64) (r : Fin 100000) (hr : r.val = 5000 * t.val + p.val) :
    k6_pay1 (iblk6 V c 0 t) (iblk6 V c 1 t) (iblk6 V c 2 t) (ix2 p q) = (relu (addRow (dense (V c main_v86) (V c main_arg8)) (V c main_v87))) (ix2 r q) := by
  rw [pay_apply, relu_apply, addRow_apply, dense_apply]
  rw [bias_apply V c t (ix2 (0 : Fin 1) q)]
  refine congrArg (fun z => max (z + _) _) (Finset.sum_congr rfl fun k _ => ?_)
  rw [left_apply V c t (ix2 p k) (ix2 r k) hr rfl, right_apply V c t (ix2 k q)]

/-- What point t writes back is block t of the layer's array. -/
theorem flushed_eq (c : Dev nD) (t : Fin cfg6.N) :
    (dat6 V c).flushed 3 t = ((cfg6.win 3).blk t).view.read (Elt Ideal) (relu (addRow (dense (V c main_v86) (V c main_arg8)) (V c main_v87))) := by
  show (cfg6.win 3).cut (grid6.coords t) ((dat6 V c).after 3 t) = _
  rw [after6_3]
  unfold out6_3
  rw [View.canon_unit_zero hz]
  simp only [View.ld_unit_zero (S := S5000x64) hz, View.ld_unit_zero (S := S64x64) hz, View.ld_unit_zero (S := S1x64) hz]
  obtain ⟨-, -, -, -, -, -, e6, e7⟩ := idx_facts t
  have hN : t.val < 20 := lt_of_lt_of_eq t.isLt N_6
  funext j
  obtain ⟨p, q, rfl⟩ : ∃ (p : Fin 5000) (q : Fin 64), j = ix2 p q := ⟨j 0, j 1, eq_ix2 j⟩
  rw [View.read_apply]
  have hp : p.val < 5000 := p.isLt
  have hidx : ((cfg6.win 3).blk t).view.emb (ix2 p q) = ix2 (⟨5000 * t.val + p.val, by omega⟩ : Fin 100000) q := by
    funext a
    apply Fin.ext
    match a with
    | ⟨0, _⟩ => show win6_3.index t 0 * 5000 + 1 * p.val = 5000 * t.val + p.val; rw [e6]; omega
    | ⟨1, _⟩ => show win6_3.index t 1 * 64 + 1 * q.val = q.val; rw [e7]; omega
  rw [hidx]
  exact block_apply V c t p q _ rfl

/-- An index of the result array is in point t's block iff its row is among the block's rows. -/
theorem mem_blk (t : Fin cfg6.N) (i : S100000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v88).slice (win6_3.rect t)).set ↔ _
  rw [View.set_slice_whole, Rect.mem_set_unit]
  exact Iff.rfl

/-- The twenty row blocks cover the result array: row r is in the block of point r / 5000. -/
theorem cover (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  have hN : cfg6.N = 20 := N_6
  let t : Fin cfg6.N := ⟨(i 0).val / 5000, by rw [hN]; omega⟩
  obtain ⟨-, -, -, -, -, -, e6, e7⟩ := idx_facts t
  have ht : t.val = (i 0).val / 5000 := rfl
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; rw [e6, ht]; omega
  | ⟨1, _⟩ => show win6_3.index t (1 : Fin 2) * 64 ≤ (i 1).val ∧ (i 1).val < win6_3.index t (1 : Fin 2) * 64 + 64; rw [e7]; omega

/-- The result array after the launch is the layer's array of what the launch found. -/
theorem final (c : Dev nD) : (dat6 V c).arrAt 3 cfg6.N = relu (addRow (dense (V c main_v86) (V c main_arg8)) (V c main_v87)) :=
  (dat6 V c).arrAt_eq_of_cover 3 (relu (addRow (dense (V c main_v86) (V c main_arg8)) (V c main_v87))) (fun t _ => flushed_eq V c t) cover

end Cert.Gcn.R6

end
-- ==== Proof.Region7.lean ====
/-
  Launch 7 of the kernel's program: the output layer, a dense product into 16 columns with its bias, 5000 rows at a time.

  The grid has 20 points. At point t the body loads rows 5000·t … 5000·t + 4999 of the features, the whole 64×16 weight
  matrix and the one bias row; multiplies the rows by the matrix into a zero accumulator (the cast of a block to its own
  shape and the change of float format on the way in are the identity on the extended reals) and adds the bias row to
  every row; the rows are written back to the same rows of the result. So entry (5000·t + p, q) of the result is
  Σ_k h (5000·t + p, k) · W (k, q) + b (0, q): the result array is `addRow16 (dense16 h W) b` of the three arrays as the
  launch finds them, and the twenty row blocks cover it.
-/
import proofs.«108074_j26499948216402_1_alg».proof.Proof.Gen.KernelIdeal.Frame
import proofs.«108074_j26499948216402_1_alg».proof.Proof.Spec
import proofs.«108074_j26499948216402_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.Gcn.R7

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block. -/
theorem pay_apply (x0 : Vec Ideal S5000x64 .f32) (x1 : Vec Ideal S64x16 .f32) (x2 : Vec Ideal S1x16 .f32) (p : Fin 5000) (q : Fin 16) :
    k7_pay1 x0 x1 x2 (ix2 p q) = (∑ k : Fin 64, x0 (ix2 p k) * x1 (ix2 k q)) + x2 (ix2 (0 : Fin 1) q) := by
  unfold k7_pay1
  simp only [shapeCast_self]
  rw [addf_apply, broadcastTo_1b_ab_apply]
  refine congrArg (· + x2 (ix2 (0 : Fin 1) q)) ?_
  exact PlainDot.matmul_zero_apply (M := 5000) (K := 64) (N := 16) dot_S5000x64_S64x16_S5000x16_1_0_0_1_n_n rfl none _ _ (ix2 p q)

/-- The printed index maps over the grid: the feature and result windows move down one block of rows per point, the
    weight and bias windows stay. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The feature window's block at point t is rows 5000·t … of the feature array. -/
theorem left_apply (c : Dev nD) (t : Fin cfg7.N) (x : S5000x64.Idx) (i : S100000x64.Idx)
    (h0 : (i 0).val = 5000 * t.val + (x 0).val) (h1 : (i 1).val = (x 1).val) :
    (iblk7 V c 0 t : Vec Ideal S5000x64 .f32) x = (V c main_v88 : S100000x64.Idx → EReal) i := by
  obtain ⟨e0, e1, -, -, -, -, -, -⟩ := idx_facts t
  unfold iblk7
  rw [View.read_apply]
  show V c main_v88 _ = V c main_v88 _
  refine congrArg _ ?_
  funext a
  apply Fin.ext
  match a with
  | ⟨0, _⟩ => show win7_0.index t 0 * 5000 + 1 * (x 0).val = (i 0).val; rw [e0, h0]; omega
  | ⟨1, _⟩ => show win7_0.index t 1 * 64 + 1 * (x 1).val = (i 1).val; rw [e1, h1]; omega

/-- The weight window's block at every point is the whole weight matrix. -/
theorem right_apply (c : Dev nD) (t : Fin cfg7.N) (x : S64x16.Idx) :
    (iblk7 V c 1 t : Vec Ideal S64x16 .f32) x = (V c main_arg10 : S64x16.Idx → EReal) x := by
  obtain ⟨-, -, e2, e3, -, -, -, -⟩ := idx_facts t
  unfold iblk7
  rw [View.read_apply]
  show V c main_arg10 _ = V c main_arg10 _
  refine congrArg _ ?_
  funext a
  apply Fin.ext
  match a with
  | ⟨0, _⟩ => show win7_1.index t 0 * 64 + 1 * (x 0).val = (x 0).val; rw [e2]; omega
  | ⟨1, _⟩ => show win7_1.index t 1 * 16 + 1 * (x 1).val = (x 1).val; rw [e3]; omega

/-- The bias window's block at every point is the whole bias row. -/
theorem bias_apply (c : Dev nD) (t : Fin cfg7.N) (x : S1x16.Idx) :
    (iblk7 V c 2 t : Vec Ideal S1x16 .f32) x = (V c main_v89 : S1x16.Idx → EReal) x := by
  obtain ⟨-, -, -, -, e4, e5, -, -⟩ := idx_facts t
  unfold iblk7
  rw [View.read_apply]
  show V c main_v89 _ = V c main_v89 _
  refine congrArg _ ?_
  funext a
  apply Fin.ext
  match a with
  | ⟨0, _⟩ => show win7_2.index t 0 * 1 + 1 * (x 0).val = (x 0).val; rw [e4]; omega
  | ⟨1, _⟩ => show win7_2.index t 1 * 16 + 1 * (x 1).val = (x 1).val; rw [e5]; omega

/-- What the body leaves at point t, at an entry: the layer's entry in row 5000·t + p. -/
theorem block_apply (c : Dev nD) (t : Fin cfg7.N) (p : Fin 5000) (q : Fin 16) (r : Fin 100000) (hr : r.val = 5000 * t.val + p.val) :
    k7_pay1 (iblk7 V c 0 t) (iblk7 V c 1 t) (iblk7 V c 2 t) (ix2 p q) = (addRow16 (dense16 (V c main_v88) (V c main_arg10)) (V c main_v89)) (ix2 r q) := by
  rw [pay_apply, addRow16_apply, dense16_apply]
  rw [bias_apply V c t (ix2 (0 : Fin 1) q)]
  refine congrArg (· + _) (Finset.sum_congr rfl fun k _ => ?_)
  rw [left_apply V c t (ix2 p k) (ix2 r k) hr rfl, right_apply V c t (ix2 k q)]

/-- What point t writes back is block t of the layer's array. -/
theorem flushed_eq (c : Dev nD) (t : Fin cfg7.N) :
    (dat7 V c).flushed 3 t = ((cfg7.win 3).blk t).view.read (Elt Ideal) (addRow16 (dense16 (V c main_v88) (V c main_arg10)) (V c main_v89)) := by
  show (cfg7.win 3).cut (grid7.coords t) ((dat7 V c).after 3 t) = _
  rw [after7_3]
  unfold out7_3
  rw [View.canon_unit_zero hz]
  simp only [View.ld_unit_zero (S := S5000x64) hz, View.ld_unit_zero (S := S64x16) hz, View.ld_unit_zero (S := S1x16) hz]
  obtain ⟨-, -, -, -, -, -, e6, e7⟩ := idx_facts t
  have hN : t.val < 20 := lt_of_lt_of_eq t.isLt N_7
  funext j
  obtain ⟨p, q, rfl⟩ : ∃ (p : Fin 5000) (q : Fin 16), j = ix2 p q := ⟨j 0, j 1, eq_ix2 j⟩
  rw [View.read_apply]
  have hp : p.val < 5000 := p.isLt
  have hidx : ((cfg7.win 3).blk t).view.emb (ix2 p q) = ix2 (⟨5000 * t.val + p.val, by omega⟩ : Fin 100000) q := by
    funext a
    apply Fin.ext
    match a with
    | ⟨0, _⟩ => show win7_3.index t 0 * 5000 + 1 * p.val = 5000 * t.val + p.val; rw [e6]; omega
    | ⟨1, _⟩ => show win7_3.index t 1 * 16 + 1 * q.val = q.val; rw [e7]; omega
  rw [hidx]
  exact block_apply V c t p q _ rfl

/-- An index of the result array is in point t's block iff its row is among the block's rows. -/
theorem mem_blk (t : Fin cfg7.N) (i : S100000x16.Idx) :
    i ∈ ((cfg7.win 3).blk t).view.set ↔ ∀ a : Fin 2, win7_3.index t a * S5000x16.size a ≤ (i a).val ∧ (i a).val < win7_3.index t a * S5000x16.size a + S5000x16.size a := by
  show i ∈ ((View.whole main_v90).slice (win7_3.rect t)).set ↔ _
  rw [View.set_slice_whole, Rect.mem_set_unit]
  exact Iff.rfl

/-- The twenty row blocks cover the result array: row r is in the block of point r / 5000. -/
theorem cover (i : S100000x16.Idx) : ∃ t : Fin cfg7.N, (cfg7.win 3).flush t = true ∧ i ∈ ((cfg7.win 3).blk t).view.set := by
  have hi0 : (i 0).val < 100000 := (i 0).isLt
  have hi1 : (i 1).val < 16 := (i 1).isLt
  have hN : cfg7.N = 20 := N_7
  let t : Fin cfg7.N := ⟨(i 0).val / 5000, by rw [hN]; omega⟩
  obtain ⟨-, -, -, -, -, -, e6, e7⟩ := idx_facts t
  have ht : t.val = (i 0).val / 5000 := rfl
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; rw [e6, ht]; omega
  | ⟨1, _⟩ => show win7_3.index t (1 : Fin 2) * 16 ≤ (i 1).val ∧ (i 1).val < win7_3.index t (1 : Fin 2) * 16 + 16; rw [e7]; omega

/-- The result array after the launch is the layer's array of what the launch found. -/
theorem final (c : Dev nD) : (dat7 V c).arrAt 3 cfg7.N = addRow16 (dense16 (V c main_v88) (V c main_arg10)) (V c main_v89) :=
  (dat7 V c).arrAt_eq_of_cover 3 (addRow16 (dense16 (V c main_v88) (V c main_arg10)) (V c main_v89)) (fun t _ => flushed_eq V c t) cover

end Cert.Gcn.R7

end
-- ==== Proof.Walk.lean ====
/-
  The kernel's program, boundary by boundary: what each buffer the next segment reads holds.

  The generated frame names the buffer contents of a core at the fourteen segment boundaries `W0` … `W14`. Walking
  forward: the first host stretch computes, from the edge list alone, the two index columns, the edge coefficients and
  the self-loop coefficients (the same host operations the reference applies, so the same functions of the edge list);
  a matmul launch leaves the dense product of the two arrays it finds; the host stretch after it leaves the
  aggregation of that product and the bias as one row; the bias launch leaves the positive part of their sum; and so
  on through three layers and the two launches of the head. A buffer no segment in between writes keeps its contents:
  the argument arrays throughout, the index columns and the coefficients from the first boundary on.
  The last boundary's result buffer is therefore the network of the argument arrays, spelt with the reference's own
  stage functions for the edge list's columns and coefficients and for the bias rows.
-/
import proofs.«108074_j26499948216402_1_alg».proof.Proof.Gen.KernelIdeal.Frame
import proofs.«108074_j26499948216402_1_alg».proof.Proof.Spec
import proofs.«108074_j26499948216402_1_alg».proof.Proof.RefSide
import proofs.«108074_j26499948216402_1_alg».proof.Proof.Region0
import proofs.«108074_j26499948216402_1_alg».proof.Proof.Region1
import proofs.«108074_j26499948216402_1_alg».proof.Proof.Region2
import proofs.«108074_j26499948216402_1_alg».proof.Proof.Region3
import proofs.«108074_j26499948216402_1_alg».proof.Proof.Region4
import proofs.«108074_j26499948216402_1_alg».proof.Proof.Region5
import proofs.«108074_j26499948216402_1_alg».proof.Proof.Region6
import proofs.«108074_j26499948216402_1_alg».proof.Proof.Region7
import Idealize.ShloMosaic.Lib.StableHlo.Run
import Idealize.ShloMosaic.Lib.Pipeline.Value

set_option maxRecDepth 16384

noncomputable section

namespace Cert.Gcn.Walk

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- A buffer none of a host stretch's operations writes keeps its contents. -/
local macro "hkeep" ops:ident : term => `(StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-! ## A bias vector reshaped to one row is the reference's row -/

theorem row64 (b : FVec Ideal S64 .f32) :
    shapeCast S1x64 b shapeCasts_S64_S1x64 = Cert.ReferenceIdeal.Read.val_main_v45 (F := Ideal) b := by
  funext i
  rw [Cert.ReferenceIdeal.Read.val_main_v45_apply]
  refine shapeCast_apply b _ i _ ?_
  rw [Shape.rowMajor_val_one, Shape.rowMajor_val_two]
  have h0 : (i 0).val < 1 := (i 0).isLt
  show (i 1).val = (i 0).val * 64 + (i 1).val
  omega

theorem row16 (b : FVec Ideal S16 .f32) :
    shapeCast S1x16 b shapeCasts_S16_S1x16 = Cert.ReferenceIdeal.Read.val_main_v145 (F := Ideal) b := by
  funext i
  rw [Cert.ReferenceIdeal.Read.val_main_v145_apply]
  refine shapeCast_apply b _ i _ ?_
  rw [Shape.rowMajor_val_one, Shape.rowMajor_val_two]
  have h0 : (i 0).val < 1 := (i 0).isLt
  show (i 1).val = (i 0).val * 16 + (i 1).val
  omega

/-! ## After the first host stretch -/

theorem w1_arg0 : W1 m ρ c (Proc.devRef .tc main_arg0) = m ((c : Thread nD τ).loc main_arg0) :=
  hkeep hostOps0
theorem w1_arg2 : W1 m ρ c (Proc.devRef .tc main_arg2) = m ((c : Thread nD τ).loc main_arg2) :=
  hkeep hostOps0
theorem w1_arg3 : W1 m ρ c (Proc.devRef .tc main_arg3) = m ((c : Thread nD τ).loc main_arg3) :=
  hkeep hostOps0
theorem w1_arg4 : W1 m ρ c (Proc.devRef .tc main_arg4) = m ((c : Thread nD τ).loc main_arg4) :=
  hkeep hostOps0
theorem w1_arg5 : W1 m ρ c (Proc.devRef .tc main_arg5) = m ((c : Thread nD τ).loc main_arg5) :=
  hkeep hostOps0
theorem w1_arg6 : W1 m ρ c (Proc.devRef .tc main_arg6) = m ((c : Thread nD τ).loc main_arg6) :=
  hkeep hostOps0
theorem w1_arg7 : W1 m ρ c (Proc.devRef .tc main_arg7) = m ((c : Thread nD τ).loc main_arg7) :=
  hkeep hostOps0
theorem w1_arg8 : W1 m ρ c (Proc.devRef .tc main_arg8) = m ((c : Thread nD τ).loc main_arg8) :=
  hkeep hostOps0
theorem w1_arg9 : W1 m ρ c (Proc.devRef .tc main_arg9) = m ((c : Thread nD τ).loc main_arg9) :=
  hkeep hostOps0
theorem w1_arg10 : W1 m ρ c (Proc.devRef .tc main_arg10) = m ((c : Thread nD τ).loc main_arg10) :=
  hkeep hostOps0
theorem w1_arg11 : W1 m ρ c (Proc.devRef .tc main_arg11) = m ((c : Thread nD τ).loc main_arg11) :=
  hkeep hostOps0

set_option maxHeartbeats 1000000 in
/-- The source index column. -/
theorem w1_src : (W1 m ρ c (Proc.devRef .tc main_v1) : IVec S1600000 32)
    = Cert.ReferenceIdeal.Read.val_main_v1 (F := Ideal) (m ((c : Thread nD τ).loc main_arg1)) := by
  show StableHlo.after hostOps0 (W0 m ρ c) (Proc.devRef .tc main_v1) = _
  after_results_simp
  rfl

set_option maxHeartbeats 1000000 in
/-- The target index column. -/
theorem w1_dst : (W1 m ρ c (Proc.devRef .tc main_v3) : IVec S1600000 32)
    = Cert.ReferenceIdeal.Read.val_main_v3 (F := Ideal) (m ((c : Thread nD τ).loc main_arg1)) := by
  show StableHlo.after hostOps0 (W0 m ρ c) (Proc.devRef .tc main_v3) = _
  after_results_simp
  rfl

set_option maxHeartbeats 1000000 in
/-- The edge coefficients. -/
theorem w1_coef : (W1 m ρ c (Proc.devRef .tc main_v25) : FVec Ideal S1600000 .f32)
    = Cert.ReferenceIdeal.Read.val_main_v26 (F := Ideal) (m ((c : Thread nD τ).loc main_arg1)) := by
  show StableHlo.after hostOps0 (W0 m ρ c) (Proc.devRef .tc main_v25) = _
  after_results_simp
  rfl

set_option maxHeartbeats 1000000 in
/-- The self-loop coefficients. -/
theorem w1_self : (W1 m ρ c (Proc.devRef .tc main_v26) : FVec Ideal S100000 .f32)
    = Cert.ReferenceIdeal.Read.val_main_v40 (F := Ideal) (m ((c : Thread nD τ).loc main_arg1)) := by
  show StableHlo.after hostOps0 (W0 m ρ c) (Proc.devRef .tc main_v26) = _
  after_results_simp
  rfl

/-! ## The three layers' outputs and the result, as functions of the launch memory -/

/-- The first layer's output. -/
def out1 : Feat := layer (m ((c : Thread nD τ).loc main_arg0)) (m ((c : Thread nD τ).loc main_arg2)) (Cert.ReferenceIdeal.Read.val_main_v45 (F := Ideal) (m ((c : Thread nD τ).loc main_arg3))) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v26 (F := Ideal) (m ((c : Thread nD τ).loc main_arg1))) (Cert.ReferenceIdeal.Read.val_main_v40 (F := Ideal) (m ((c : Thread nD τ).loc main_arg1)))
/-- The second layer's output. -/
def out2 : Feat := layer (out1 m c) (m ((c : Thread nD τ).loc main_arg4)) (Cert.ReferenceIdeal.Read.val_main_v45 (F := Ideal) (m ((c : Thread nD τ).loc main_arg5))) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v26 (F := Ideal) (m ((c : Thread nD τ).loc main_arg1))) (Cert.ReferenceIdeal.Read.val_main_v40 (F := Ideal) (m ((c : Thread nD τ).loc main_arg1)))
/-- The third layer's output. -/
def out3 : Feat := layer (out2 m c) (m ((c : Thread nD τ).loc main_arg6)) (Cert.ReferenceIdeal.Read.val_main_v45 (F := Ideal) (m ((c : Thread nD τ).loc main_arg7))) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v26 (F := Ideal) (m ((c : Thread nD τ).loc main_arg1))) (Cert.ReferenceIdeal.Read.val_main_v40 (F := Ideal) (m ((c : Thread nD τ).loc main_arg1)))

/-! ## Across the first launch -/

theorem w2_src : W2 m ρ c (Proc.devRef .tc main_v1) = (Cert.ReferenceIdeal.Read.val_main_v1 (F := Ideal) (m ((c : Thread nD τ).loc main_arg1))) :=
  (W2_of_ne m ρ c _ (by decide)).trans (w1_src m ρ c)
theorem w2_dst : W2 m ρ c (Proc.devRef .tc main_v3) = (Cert.ReferenceIdeal.Read.val_main_v3 (F := Ideal) (m ((c : Thread nD τ).loc main_arg1))) :=
  (W2_of_ne m ρ c _ (by decide)).trans (w1_dst m ρ c)
theorem w2_coef : W2 m ρ c (Proc.devRef .tc main_v25) = (Cert.ReferenceIdeal.Read.val_main_v26 (F := Ideal) (m ((c : Thread nD τ).loc main_arg1))) :=
  (W2_of_ne m ρ c _ (by decide)).trans (w1_coef m ρ c)
theorem w2_self : W2 m ρ c (Proc.devRef .tc main_v26) = (Cert.ReferenceIdeal.Read.val_main_v40 (F := Ideal) (m ((c : Thread nD τ).loc main_arg1))) :=
  (W2_of_ne m ρ c _ (by decide)).trans (w1_self m ρ c)
theorem w2_arg3 : W2 m ρ c (Proc.devRef .tc main_arg3) = (m ((c : Thread nD τ).loc main_arg3)) :=
  (W2_of_ne m ρ c _ (by decide)).trans (w1_arg3 m ρ c)

/-- The first launch leaves the dense product of the features and the first weight matrix. -/
theorem w2_out : W2 m ρ c (Proc.devRef .tc main_v27) = dense (m ((c : Thread nD τ).loc main_arg0)) (m ((c : Thread nD τ).loc main_arg2)) := by
  refine (W2_arr m ρ c 2).trans ((R0.final (V1 m ρ) c).trans ?_)
  show dense (W1 m ρ c (Proc.devRef .tc main_arg0)) (W1 m ρ c (Proc.devRef .tc main_arg2)) = _
  rw [w1_arg0, w1_arg2]

/-! ## The first layer's aggregation, bias row and positive part -/

set_option maxHeartbeats 1000000 in
theorem w3_agg : W3 m ρ c (Proc.devRef .tc main_v44)
    = aggregate (W2 m ρ c (Proc.devRef .tc main_v27)) (W2 m ρ c (Proc.devRef .tc main_v1)) (W2 m ρ c (Proc.devRef .tc main_v3)) (W2 m ρ c (Proc.devRef .tc main_v25)) (W2 m ρ c (Proc.devRef .tc main_v26)) := by
  show StableHlo.after hostOps1 (W2 m ρ c) (Proc.devRef .tc main_v44) = _
  after_results_simp
  rfl

set_option maxHeartbeats 1000000 in
theorem w3_row : W3 m ρ c (Proc.devRef .tc main_v45) = shapeCast S1x64 (W2 m ρ c (Proc.devRef .tc main_arg3)) shapeCasts_S64_S1x64 := by
  show StableHlo.after hostOps1 (W2 m ρ c) (Proc.devRef .tc main_v45) = _
  after_results_simp
  rfl

theorem w4_out : W4 m ρ c (Proc.devRef .tc main_v46) = out1 m c := by
  refine (W4_arr m ρ c 2).trans ((R1.final (V3 m ρ) c).trans ?_)
  show relu (addRow (W3 m ρ c (Proc.devRef .tc main_v44)) (W3 m ρ c (Proc.devRef .tc main_v45))) = _
  rw [w3_agg, w3_row, w2_out, w2_src, w2_dst, w2_coef, w2_self, w2_arg3, row64]
  rfl

theorem w4_arg4 : W4 m ρ c (Proc.devRef .tc main_arg4) = (m ((c : Thread nD τ).loc main_arg4)) :=
  (W4_of_ne m ρ c _ (by decide)).trans ((hkeep hostOps1).trans ((W2_of_ne m ρ c _ (by decide)).trans (w1_arg4 m ρ c)))

/-! ## The second layer -/

theorem w5_out : W5 m ρ c (Proc.devRef .tc main_v47) = dense (out1 m c) (m ((c : Thread nD τ).loc main_arg4)) := by
  refine (W5_arr m ρ c 2).trans ((R2.final (V4 m ρ) c).trans ?_)
  show dense (W4 m ρ c (Proc.devRef .tc main_v46)) (W4 m ρ c (Proc.devRef .tc main_arg4)) = _
  rw [w4_out, w4_arg4]

theorem w5_src : W5 m ρ c (Proc.devRef .tc main_v1) = (Cert.ReferenceIdeal.Read.val_main_v1 (F := Ideal) (m ((c : Thread nD τ).loc main_arg1))) :=
  (W5_of_ne m ρ c _ (by decide)).trans ((W4_of_ne m ρ c _ (by decide)).trans ((hkeep hostOps1).trans (w2_src m ρ c)))
theorem w5_dst : W5 m ρ c (Proc.devRef .tc main_v3) = (Cert.ReferenceIdeal.Read.val_main_v3 (F := Ideal) (m ((c : Thread nD τ).loc main_arg1))) :=
  (W5_of_ne m ρ c _ (by decide)).trans ((W4_of_ne m ρ c _ (by decide)).trans ((hkeep hostOps1).trans (w2_dst m ρ c)))
theorem w5_coef : W5 m ρ c (Proc.devRef .tc main_v25) = (Cert.ReferenceIdeal.Read.val_main_v26 (F := Ideal) (m ((c : Thread nD τ).loc main_arg1))) :=
  (W5_of_ne m ρ c _ (by decide)).trans ((W4_of_ne m ρ c _ (by decide)).trans ((hkeep hostOps1).trans (w2_coef m ρ c)))
theorem w5_self : W5 m ρ c (Proc.devRef .tc main_v26) = (Cert.ReferenceIdeal.Read.val_main_v40 (F := Ideal) (m ((c : Thread nD τ).loc main_arg1))) :=
  (W5_of_ne m ρ c _ (by decide)).trans ((W4_of_ne m ρ c _ (by decide)).trans ((hkeep hostOps1).trans (w2_self m ρ c)))
theorem w5_arg5 : W5 m ρ c (Proc.devRef .tc main_arg5) = (m ((c : Thread nD τ).loc main_arg5)) :=
  (W5_of_ne m ρ c _ (by decide)).trans ((W4_of_ne m ρ c _ (by decide)).trans ((hkeep hostOps1).trans ((W2_of_ne m ρ c _ (by decide)).trans (w1_arg5 m ρ c))))

set_option maxHeartbeats 1000000 in
theorem w6_agg : W6 m ρ c (Proc.devRef .tc main_v64)
    = aggregate (W5 m ρ c (Proc.devRef .tc main_v47)) (W5 m ρ c (Proc.devRef .tc main_v1)) (W5 m ρ c (Proc.devRef .tc main_v3)) (W5 m ρ c (Proc.devRef .tc main_v25)) (W5 m ρ c (Proc.devRef .tc main_v26)) := by
  show StableHlo.after hostOps3 (W5 m ρ c) (Proc.devRef .tc main_v64) = _
  after_results_simp
  rfl

set_option maxHeartbeats 1000000 in
theorem w6_row : W6 m ρ c (Proc.devRef .tc main_v65) = shapeCast S1x64 (W5 m ρ c (Proc.devRef .tc main_arg5)) shapeCasts_S64_S1x64 := by
  show StableHlo.after hostOps3 (W5 m ρ c) (Proc.devRef .tc main_v65) = _
  after_results_simp
  rfl

theorem w7_out : W7 m ρ c (Proc.devRef .tc main_v66) = out2 m c := by
  refine (W7_arr m ρ c 2).trans ((R3.final (V6 m ρ) c).trans ?_)
  show relu (addRow (W6 m ρ c (Proc.devRef .tc main_v64)) (W6 m ρ c (Proc.devRef .tc main_v65))) = _
  rw [w6_agg, w6_row, w5_out, w5_src, w5_dst, w5_coef, w5_self, w5_arg5, row64]
  rfl

theorem w7_arg6 : W7 m ρ c (Proc.devRef .tc main_arg6) = (m ((c : Thread nD τ).loc main_arg6)) :=
  (W7_of_ne m ρ c _ (by decide)).trans ((hkeep hostOps3).trans ((W5_of_ne m ρ c _ (by decide)).trans ((W4_of_ne m ρ c _ (by decide)).trans ((hkeep hostOps1).trans ((W2_of_ne m ρ c _ (by decide)).trans (w1_arg6 m ρ c))))))

/-! ## The third layer -/

theorem w8_out : W8 m ρ c (Proc.devRef .tc main_v67) = dense (out2 m c) (m ((c : Thread nD τ).loc main_arg6)) := by
  refine (W8_arr m ρ c 2).trans ((R4.final (V7 m ρ) c).trans ?_)
  show dense (W7 m ρ c (Proc.devRef .tc main_v66)) (W7 m ρ c (Proc.devRef .tc main_arg6)) = _
  rw [w7_out, w7_arg6]

theorem w8_src : W8 m ρ c (Proc.devRef .tc main_v1) = (Cert.ReferenceIdeal.Read.val_main_v1 (F := Ideal) (m ((c : Thread nD τ).loc main_arg1))) :=
  (W8_of_ne m ρ c _ (by decide)).trans ((W7_of_ne m ρ c _ (by decide)).trans ((hkeep hostOps3).trans (w5_src m ρ c)))
theorem w8_dst : W8 m ρ c (Proc.devRef .tc main_v3) = (Cert.ReferenceIdeal.Read.val_main_v3 (F := Ideal) (m ((c : Thread nD τ).loc main_arg1))) :=
  (W8_of_ne m ρ c _ (by decide)).trans ((W7_of_ne m ρ c _ (by decide)).trans ((hkeep hostOps3).trans (w5_dst m ρ c)))
theorem w8_coef : W8 m ρ c (Proc.devRef .tc main_v25) = (Cert.ReferenceIdeal.Read.val_main_v26 (F := Ideal) (m ((c : Thread nD τ).loc main_arg1))) :=
  (W8_of_ne m ρ c _ (by decide)).trans ((W7_of_ne m ρ c _ (by decide)).trans ((hkeep hostOps3).trans (w5_coef m ρ c)))
theorem w8_self : W8 m ρ c (Proc.devRef .tc main_v26) = (Cert.ReferenceIdeal.Read.val_main_v40 (F := Ideal) (m ((c : Thread nD τ).loc main_arg1))) :=
  (W8_of_ne m ρ c _ (by decide)).trans ((W7_of_ne m ρ c _ (by decide)).trans ((hkeep hostOps3).trans (w5_self m ρ c)))
theorem w8_arg7 : W8 m ρ c (Proc.devRef .tc main_arg7) = (m ((c : Thread nD τ).loc main_arg7)) :=
  (W8_of_ne m ρ c _ (by decide)).trans ((W7_of_ne m ρ c _ (by decide)).trans ((hkeep hostOps3).trans ((W5_of_ne m ρ c _ (by decide)).trans ((W4_of_ne m ρ c _ (by decide)).trans ((hkeep hostOps1).trans ((W2_of_ne m ρ c _ (by decide)).trans (w1_arg7 m ρ c)))))))

set_option maxHeartbeats 1000000 in
theorem w9_agg : W9 m ρ c (Proc.devRef .tc main_v84)
    = aggregate (W8 m ρ c (Proc.devRef .tc main_v67)) (W8 m ρ c (Proc.devRef .tc main_v1)) (W8 m ρ c (Proc.devRef .tc main_v3)) (W8 m ρ c (Proc.devRef .tc main_v25)) (W8 m ρ c (Proc.devRef .tc main_v26)) := by
  show StableHlo.after hostOps5 (W8 m ρ c) (Proc.devRef .tc main_v84) = _
  after_results_simp
  rfl

set_option maxHeartbeats 1000000 in
theorem w9_row : W9 m ρ c (Proc.devRef .tc main_v85) = shapeCast S1x64 (W8 m ρ c (Proc.devRef .tc main_arg7)) shapeCasts_S64_S1x64 := by
  show StableHlo.after hostOps5 (W8 m ρ c) (Proc.devRef .tc main_v85) = _
  after_results_simp
  rfl

theorem w10_out : W10 m ρ c (Proc.devRef .tc main_v86) = out3 m c := by
  refine (W10_arr m ρ c 2).trans ((R5.final (V9 m ρ) c).trans ?_)
  show relu (addRow (W9 m ρ c (Proc.devRef .tc main_v84)) (W9 m ρ c (Proc.devRef .tc main_v85))) = _
  rw [w9_agg, w9_row, w8_out, w8_src, w8_dst, w8_coef, w8_self, w8_arg7, row64]
  rfl

/-! ## The head -/

theorem w10_arg9 : W10 m ρ c (Proc.devRef .tc main_arg9) = (m ((c : Thread nD τ).loc main_arg9)) :=
  (W10_of_ne m ρ c _ (by decide)).trans ((hkeep hostOps5).trans ((W8_of_ne m ρ c _ (by decide)).trans ((W7_of_ne m ρ c _ (by decide)).trans ((hkeep hostOps3).trans ((W5_of_ne m ρ c _ (by decide)).trans ((W4_of_ne m ρ c _ (by decide)).trans ((hkeep hostOps1).trans ((W2_of_ne m ρ c _ (by decide)).trans (w1_arg9 m ρ c)))))))))
theorem w11_arg8 : W11 m ρ c (Proc.devRef .tc main_arg8) = (m ((c : Thread nD τ).loc main_arg8)) :=
  (hkeep hostOps6).trans ((W10_of_ne m ρ c _ (by decide)).trans ((hkeep hostOps5).trans ((W8_of_ne m ρ c _ (by decide)).trans ((W7_of_ne m ρ c _ (by decide)).trans ((hkeep hostOps3).trans ((W5_of_ne m ρ c _ (by decide)).trans ((W4_of_ne m ρ c _ (by decide)).trans ((hkeep hostOps1).trans ((W2_of_ne m ρ c _ (by decide)).trans (w1_arg8 m ρ c))))))))))

theorem w11_row : W11 m ρ c (Proc.devRef .tc main_v87) = shapeCast S1x64 (W10 m ρ c (Proc.devRef .tc main_arg9)) shapeCasts_S64_S1x64 := by
  show StableHlo.after hostOps6 (W10 m ρ c) (Proc.devRef .tc main_v87) = _
  after_results_simp
  rfl

theorem w11_feat : W11 m ρ c (Proc.devRef .tc main_v86) = out3 m c :=
  (hkeep hostOps6).trans (w10_out m ρ c)

theorem w12_out : W12 m ρ c (Proc.devRef .tc main_v88) = relu (addRow (dense (out3 m c) (m ((c : Thread nD τ).loc main_arg8))) (Cert.ReferenceIdeal.Read.val_main_v45 (F := Ideal) (m ((c : Thread nD τ).loc main_arg9)))) := by
  refine (W12_arr m ρ c 3).trans ((R6.final (V11 m ρ) c).trans ?_)
  show relu (addRow (dense (W11 m ρ c (Proc.devRef .tc main_v86)) (W11 m ρ c (Proc.devRef .tc main_arg8))) (W11 m ρ c (Proc.devRef .tc main_v87))) = _
  rw [w11_feat, w11_arg8, w11_row, w10_arg9, row64]

theorem w12_arg11 : W12 m ρ c (Proc.devRef .tc main_arg11) = (m ((c : Thread nD τ).loc main_arg11)) :=
  (W12_of_ne m ρ c _ (by decide)).trans ((hkeep hostOps6).trans ((W10_of_ne m ρ c _ (by decide)).trans ((hkeep hostOps5).trans ((W8_of_ne m ρ c _ (by decide)).trans ((W7_of_ne m ρ c _ (by decide)).trans ((hkeep hostOps3).trans ((W5_of_ne m ρ c _ (by decide)).trans ((W4_of_ne m ρ c _ (by decide)).trans ((hkeep hostOps1).trans ((W2_of_ne m ρ c _ (by decide)).trans (w1_arg11 m ρ c)))))))))))
theorem w13_arg10 : W13 m ρ c (Proc.devRef .tc main_arg10) = (m ((c : Thread nD τ).loc main_arg10)) :=
  (hkeep hostOps7).trans ((W12_of_ne m ρ c _ (by decide)).trans ((hkeep hostOps6).trans ((W10_of_ne m ρ c _ (by decide)).trans ((hkeep hostOps5).trans ((W8_of_ne m ρ c _ (by decide)).trans ((W7_of_ne m ρ c _ (by decide)).trans ((hkeep hostOps3).trans ((W5_of_ne m ρ c _ (by decide)).trans ((W4_of_ne m ρ c _ (by decide)).trans ((hkeep hostOps1).trans ((W2_of_ne m ρ c _ (by decide)).trans (w1_arg10 m ρ c))))))))))))

theorem w13_row : W13 m ρ c (Proc.devRef .tc main_v89) = shapeCast S1x16 (W12 m ρ c (Proc.devRef .tc main_arg11)) shapeCasts_S16_S1x16 := by
  show StableHlo.after hostOps7 (W12 m ρ c) (Proc.devRef .tc main_v89) = _
  after_results_simp
  rfl

theorem w13_feat : W13 m ρ c (Proc.devRef .tc main_v88) = relu (addRow (dense (out3 m c) (m ((c : Thread nD τ).loc main_arg8))) (Cert.ReferenceIdeal.Read.val_main_v45 (F := Ideal) (m ((c : Thread nD τ).loc main_arg9)))) :=
  (hkeep hostOps7).trans (w12_out m ρ c)

/-- The result buffer at the return: the head of the third layer's output. -/
theorem w14_out : W14 m ρ c (Proc.devRef .tc main_v90)
    = head (out3 m c) (m ((c : Thread nD τ).loc main_arg8)) (Cert.ReferenceIdeal.Read.val_main_v45 (F := Ideal) (m ((c : Thread nD τ).loc main_arg9))) (m ((c : Thread nD τ).loc main_arg10)) (Cert.ReferenceIdeal.Read.val_main_v145 (F := Ideal) (m ((c : Thread nD τ).loc main_arg11))) := by
  refine (W14_arr m ρ c 3).trans ((R7.final (V13 m ρ) c).trans ?_)
  show addRow16 (dense16 (W13 m ρ c (Proc.devRef .tc main_v88)) (W13 m ρ c (Proc.devRef .tc main_arg10))) (W13 m ρ c (Proc.devRef .tc main_v89)) = _
  rw [w13_feat, w13_arg10, w13_row, w12_arg11, row16]
  rfl

/-- The result buffer at the return is the reference's result stage of the launch memory's argument arrays. -/
theorem result_eq : W14 m ρ c (Proc.devRef .tc main_v90)
    = Cert.ReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [w14_out, ref_net]
  rfl

end Cert.Gcn.Walk

end
-- ==== Proof.lean ====
/-
  A three-layer graph convolution with a two-layer head, computed by eight kernel launches among host operations,
  against the same network written with whole-array host operations.

  Both programs compute, from node features x : [100000, 64], an edge list and five weight matrices with their biases,
      h₁ = relu (A·(x·W₁) + b₁),  h₂ = relu (A·(h₁·W₂) + b₂),  h₃ = relu (A·(h₂·W₃) + b₃),
      result = relu (h₃·Wf₁ + bf₁)·Wf₂ + bf₂,
  where A·g sums into each target node's row the source rows of g scaled by the edge's coefficient and adds the node's
  own row scaled by its self-loop coefficient; the coefficients are functions of the edge list alone.
  The kernel computes each dense product, each bias-and-positive-part and the two layers of the head in launches that
  handle 5000 rows at a time, and leaves the aggregation A· to the same host operations the reference uses. On the
  extended reals a launch's twenty row blocks tile its result array, a matmul into a zero accumulator at an entry is
  the sum over the contracted coordinate that the host's product is, the changes of float format are the identity, and
  a bias reshaped to one row and added to every loaded row is the bias broadcast over the whole array. So the result
  buffer holds the same function of the argument arrays in both programs, entry by entry; no law of arithmetic beyond
  these readings is used, and the precondition is not needed.

  The frames of the two kernel programs are the generated ones; the reference's is its generated run with the result
  dropped; nothing was rewritten by the idealization, so there is nothing to preserve.
-/
import proofs.«108074_j26499948216402_1_alg».proof.Defs
import proofs.«108074_j26499948216402_1_alg».proof.Proof.Gen.Kernel
import proofs.«108074_j26499948216402_1_alg».proof.Proof.Gen.Kernel.Skeleton
import proofs.«108074_j26499948216402_1_alg».proof.Proof.Gen.Kernel.Launch
import proofs.«108074_j26499948216402_1_alg».proof.Proof.Gen.Kernel.Points
import proofs.«108074_j26499948216402_1_alg».proof.Proof.Gen.Kernel.Frame
import proofs.«108074_j26499948216402_1_alg».proof.Proof.Gen.KernelIdeal
import proofs.«108074_j26499948216402_1_alg».proof.Proof.Gen.KernelIdeal.Skeleton
import proofs.«108074_j26499948216402_1_alg».proof.Proof.Gen.KernelIdeal.Launch
import proofs.«108074_j26499948216402_1_alg».proof.Proof.Gen.KernelIdeal.Points
import proofs.«108074_j26499948216402_1_alg».proof.Proof.Gen.KernelIdeal.Frame
import proofs.«108074_j26499948216402_1_alg».proof.Proof.Gen.ReferenceIdeal
import proofs.«108074_j26499948216402_1_alg».proof.Proof.Gen.Pre_finite_inputs
import proofs.«108074_j26499948216402_1_alg».proof.Proof.Gen.ReferenceIdeal.Run
import proofs.«108074_j26499948216402_1_alg».proof.Proof.Gen.ReferenceIdeal.Read
import proofs.«108074_j26499948216402_1_alg».proof.Proof.RunAll
import proofs.«108074_j26499948216402_1_alg».proof.Proof.Walk
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the reference's result stage of the kernel's argument arrays: the kernel's
    by the walk through its boundaries, the reference's by its generated run, the arguments agreeing. -/
theorem algebraic : Cert.algebraic_KernelIdeal_ReferenceIdeal := by
  intro m ρ m' ρ' _ hagree
  refine ⟨fun c => Cert.ReferenceIdeal.Read.val_main_v147 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.Gcn.Walk.result_eq m ρ c), (h c).2⟩)
      (Cert.KernelIdeal.GcnRun.run_result (F := Ideal) m ρ)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v147_eq]
    obtain ⟨h0, h1, h2, h3, h4, h5, h6, h7, h8, h9, h10, h11⟩ := hagree c
    rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
